-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8192x256 .f32) (main_arg1 : FVec F S8192x256 .f32) (main_arg2 : FVec F S8192x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 16
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_11 : BitVec 32 := 0#32
  let v24 : BitVec 1 := Scalar.cmpi .ne v23 c0_i32_11
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  transposes_S1024x256_p1_0_S256x1024 : S1024x256.Transposes [1, 0] S256x1024
  dot_S1024x256_S256x256_S1024x256_1_0_0_1_n_n_wf : DotDims.WF S1024x256 S256x256 S1024x256 [1] [0] [0] [1] [] []
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x256.size a
  hwx0_9 : ∀ i : grid0.Coords, EltTy.bits .f32 = 32 ∨ (Rect.block (s := S8192x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S8192x256.size a
  hwx0_10 : ∀ i : grid0.Coords, EltTy.bits .f32 = 32 ∨ (Rect.block (s := S8192x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S8192x256.size a
  hwx0_11 : ∀ i : grid0.Coords, EltTy.bits .f32 = 32 ∨ (Rect.block (s := S8192x256) S1024x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v3_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S1x256 : Shape := ⟨2, ![1, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S256x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S256x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S256x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.BitsRegion0.lean ====
/- REGION 0 of @main (custom_call 0, the projection kernel, pipeline 0), at a PARAMETER `V` — the TensorCore's
   buffer contents when the region is entered: each window's block at a point (`iblk0`), what the body leaves in
   each output window's buffer as a closed function of the input blocks (`out0_9`, `out0_10`, `out0_11`: one
   covering store each, of the payloads `k0_pay1`, `k0_pay2`, `k0_pay3` of the x block, the weight matrix and the
   bias row), the body's separation-logic triple (`sound_kernel0`), the pipeline's proof data (`dat0`) and the
   body obligation at every grid point (`body_obligation0`). Windows 0,1,2 are the [1024,256] row blocks of the
   three activations, 3,5,7 the whole [256,256] weights, 4,6,8 the whole [1,256] biases (fetched at the first
   point only: unfetched, the block index has not moved, so the buffer still holds the block), 9,10,11 the
   [1024,256] row blocks of the three projections, written back at every point. -/
import proofs.«121333_j25159918420592_1_alg».proof.Proof.Gen.Kernel.Launch
import proofs.«121333_j25159918420592_1_alg».proof.Proof.Gen.Kernel.Skeleton
import proofs.«121333_j25159918420592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents [1024,256]: the elaborator's structural look recurses once per coordinate
-- of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block
    index has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block
    index has not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block
    index has not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0

/-! ## What the body leaves in each output window's buffer -/

/-- Window 9's staging buffer after the body, from the blocks of windows 0 (activations), 3 (weights) and 4 (bias):
    its one store, of the payload `k0_pay1`, as a piece covering the buffer. -/
def out0_9 (x0 : Vec F S1024x256 .f32) (x3 : Vec F S256x256 .f32) (x4 : Vec F S1x256 .f32) : Vec F S1024x256 .f32 :=
  View.canon [⟨r0_0, k0_pay1 (View.ld x0 r0_0) (View.ld x3 r0_1) (View.ld x4 r0_2)⟩]

/-- Its store tiles the buffer (checked by evaluation), so it covers it. -/
theorem cover0_9 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-- Window 10's staging buffer after the body, from the blocks of windows 1 (activations), 5 (weights) and 6 (bias):
    its one store, of the payload `k0_pay2`, as a piece covering the buffer. -/
def out0_10 (x1 : Vec F S1024x256 .f32) (x5 : Vec F S256x256 .f32) (x6 : Vec F S1x256 .f32) : Vec F S1024x256 .f32 :=
  View.canon [⟨r0_0, k0_pay2 (View.ld x1 r0_0) (View.ld x5 r0_1) (View.ld x6 r0_2)⟩]

/-- Its store tiles the buffer (checked by evaluation), so it covers it. -/
theorem cover0_10 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-- Window 11's staging buffer after the body, from the blocks of windows 2 (activations), 7 (weights) and 8 (bias):
    its one store, of the payload `k0_pay3`, as a piece covering the buffer. -/
def out0_11 (x2 : Vec F S1024x256 .f32) (x7 : Vec F S256x256 .f32) (x8 : Vec F S1x256 .f32) : Vec F S1024x256 .f32 :=
  View.canon [⟨r0_0, k0_pay3 (View.ld x2 r0_0) (View.ld x7 r0_1) (View.ld x8 r0_2)⟩]

/-- Its store tiles the buffer (checked by evaluation), so it covers it. -/
theorem cover0_11 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, run one memory operation at a time through the part call. -/
theorem sound_kernel0 (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole)
    (x0 : Vec F S1024x256 .f32) (x1 : Vec F S1024x256 .f32) (x2 : Vec F S1024x256 .f32) (x3 : Vec F S256x256 .f32) (x4 : Vec F S1x256 .f32) (x5 : Vec F S256x256 .f32) (x6 : Vec F S1x256 .f32) (x7 : Vec F S256x256 .f32) (x8 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out0_9 x0 x3 x4)
            ∗ owns (c : Thread nD τ) arg11 fullShare (out0_10 x1 x5 x6)
            ∗ owns (c : Thread nD τ) arg12 fullShare (out0_11 x2 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  iexists _; isplitr
  swap; · iexact H11
  ipureintro
  try dsimp only
  exact View.read_writes_eq_canon _ _ _ (cover0_11 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Frame

end
-- ==== Proof.BitsRegion1Runs.lean ====
import proofs.«121333_j25159918420592_1_alg».proof.Proof.Gen.Kernel.Launch
import proofs.«121333_j25159918420592_1_alg».proof.Proof.Gen.Kernel.Skeleton
import proofs.«121333_j25159918420592_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region (the attention kernel), at the contents `V` its arrays hold when it is entered

The grid is 8 × 8: point `t = 8·i + j` reads the `i`-th block of 1024 query rows and the `j`-th block of 1024 key and
value rows, adds that block's contribution to an accumulator kept in a scratch buffer, clears the accumulator first
when `j = 0` and copies it to the output block `i` when `j = 7`. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- "This is the first key block" (`j = 0`), as the body computes it from the second grid coordinate. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key block" (`j = 7`). -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block nothing is stored into the output window, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- At the last key block the output window is stored into. -/
theorem liveAt1_3 : ∀ t : Fin cfg1.N, cond1_1 (grid1.coords t) → cfg1.idle 3 (grid1.coords t) = false := by decide +kernel

/-! ## The memrefs the body is called with -/

abbrev VO1_3 : View sig .tc .vmem S1024x256 .f32 := (Memref.whole cc1_stg3_0 : Memref sig .tc .vmem S1024x256 .f32).view
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x256 .f32 := Memref.whole cc1_scratch0
abbrev VS1 : View sig .tc .vmem S1024x256 .f32 := scM1.view

/-! ## The scoped buffers the region does not stage: the accumulator, and the rest -/

/-- The first region's staging buffers, each whole at some contents: this region never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 c) := by
  unfold Rest1
  exact Pipeline.scopedRest_eq_of_list spec1 c [cc1_scratch0, cc0_stg0_0, cc0_stg0_1, cc0_stg1_0, cc0_stg1_1, cc0_stg2_0, cc0_stg2_1, cc0_stg3_0, cc0_stg4_0, cc0_stg5_0, cc0_stg6_0, cc0_stg7_0, cc0_stg8_0, cc0_stg9_0, cc0_stg9_1, cc0_stg10_0, cc0_stg10_1, cc0_stg11_0, cc0_stg11_1] (by decide) (by decide)

/-- What the region is entered with beside its windows: the accumulator at anything, the other scoped buffers, the generator register. -/
theorem PhiA1_split (c : Dev nD) :
    (Pipeline.ΦA spec1 c : sProp 𝕄) ⊢ iprop((∃ d, owns (c : Thread nD τ) scM1 fullShare d) ∗ Rest1 c ∗ (∃ r, prngReg c r)) := by
  unfold Pipeline.ΦA; rw [scopedRest1_split]; simp only [scM1, owns_whole]
  iintro ⟨⟨HS, HR⟩, Hg⟩
  isplitl [HS]; · iexact HS
  isplitl [HR]; · iexact HR
  iexact Hg
theorem PhiA1_join (c : Dev nD) :
    iprop((∃ d, owns (c : Thread nD τ) scM1 fullShare d) ∗ Rest1 c ∗ (∃ r, prngReg c r)) ⊢ (Pipeline.ΦA spec1 c : sProp 𝕄) := by
  unfold Pipeline.ΦA; rw [scopedRest1_split]; simp only [scM1, owns_whole]
  iintro ⟨HS, HR, Hg⟩
  isplitl [HS HR]
  · isplitl [HS]; · iexact HS
    iexact HR
  iexact Hg

end Cert.Kernel.Frame

end
-- ==== Proof.BitsRegion1RunA.lean ====
import proofs.«121333_j25159918420592_1_alg».proof.Proof.BitsRegion1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of the first key block: the accumulator, found at anything, is cleared and then holds this block's contribution; the output buffer is handed back untouched. The pieces each buffer ends with are found by running the body. -/
noncomputable def kernelRun1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.BitsRegion1RunB.lean ====
import proofs.«121333_j25159918420592_1_alg».proof.Proof.BitsRegion1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of a middle key block: the accumulator, found at what the point before left, has this block's contribution added; the output buffer is handed back untouched. The pieces each buffer ends with are found by running the body. -/
noncomputable def kernelRun1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.BitsRegion1RunC.lean ====
import proofs.«121333_j25159918420592_1_alg».proof.Proof.BitsRegion1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of the last key block: the accumulator has this block's contribution added and is copied into the output buffer. The pieces each buffer ends with are found by running the body. -/
noncomputable def kernelRun1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.BitsRegion1.lean ====
import proofs.«121333_j25159918420592_1_alg».proof.Proof.BitsRegion1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: what the accumulator and the output hold point by point, the proof data, the body obligation -/

variable (V : (c : Dev nD) → (b : Ref sig .tc) → Buf (Elt F) ((c : Thread nD τ).loc b))

/-- What case A leaves in the output window's buffer: its pieces read back (none: a placeholder nothing consults, the window being idle there). -/
def out1_A_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) : Vec F S1024x256 .f32 :=
  VO1_3.read (Elt F) (VO1_3.writes (Elt F) VO1_3.junk (kernelRun1_A c i arg2 harg2 arg3 harg3 arg4 harg4 arg5 harg5 arg6 harg6 hc0 hc1 x0 x1 x2).1)
/-- Case A's stores into the accumulator cover it. -/
theorem scover1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y
/-- What case A leaves in the accumulator. -/
def sout1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) : Vec F S1024x256 .f32 :=
  VS1.read (Elt F) (VS1.writes (Elt F) VS1.junk (kernelRun1_A c i arg2 harg2 arg3 harg3 arg4 harg4 arg5 harg5 arg6 harg6 hc0 hc1 x0 x1 x2).2.1)

/-- What case B leaves in the output window's buffer: its pieces read back (none: a placeholder nothing consults, the window being idle there). -/
def out1_B_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) : Vec F S1024x256 .f32 :=
  VO1_3.read (Elt F) (VO1_3.writes (Elt F) VO1_3.junk (kernelRun1_B c i arg2 harg2 arg3 harg3 arg4 harg4 arg5 harg5 arg6 harg6 hc0 hc1 x0 x1 x2 xs0).1)
/-- Case B's stores into the accumulator cover it. -/
theorem scover1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) (y : S1024x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x256.size (by sl_kernel_rfl) y
/-- What case B leaves in the accumulator. -/
def sout1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) : Vec F S1024x256 .f32 :=
  VS1.read (Elt F) (VS1.writes (Elt F) VS1.junk (kernelRun1_B c i arg2 harg2 arg3 harg3 arg4 harg4 arg5 harg5 arg6 harg6 hc0 hc1 x0 x1 x2 xs0).2.1)

/-- At the last key block the one store into the output window covers it. -/
theorem cover1_C_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x256.size (by sl_kernel_rfl) y
/-- What case C leaves in the output window's buffer: its pieces read back. -/
def out1_C_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) : Vec F S1024x256 .f32 :=
  VO1_3.read (Elt F) (VO1_3.writes (Elt F) VO1_3.junk (kernelRun1_C c i arg2 harg2 arg3 harg3 arg4 harg4 arg5 harg5 arg6 harg6 hc0 hc1 x0 x1 x2 xs0).1)
/-- Case C's stores into the accumulator cover it. -/
theorem scover1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x256.size (by sl_kernel_rfl) y
/-- What case C leaves in the accumulator. -/
def sout1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) : Vec F S1024x256 .f32 :=
  VS1.read (Elt F) (VS1.writes (Elt F) VS1.junk (kernelRun1_C c i arg2 harg2 arg3 harg3 arg4 harg4 arg5 harg5 arg6 harg6 hc0 hc1 x0 x1 x2 xs0).2.1)

/-! ## The accumulation -/

/-- What the output window's buffer and the accumulator hold after the body at position `n` (output first): the case
    the point is in, run on the point's memrefs and blocks, the accumulator found at what position `n - 1` left
    (at a first key block it is cleared, so what it held does not matter). -/
def outsAt1 (c : Dev nD) : (n : ℕ) → n < cfg1.N → Vec F S1024x256 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the region is entered with; afterwards the
    accumulator at what the point before left in it, the other scoped buffers and the generator register. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ Rest1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ Rest1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ Rest1 c ∗ (∃ r, prngReg c r)) := by
  cases n with
  | zero => exact absurd rfl hz
  | succ n => rfl

/-! ## The proof data -/

/-- The arrays as the region finds them; after the body each input's buffer at its block and the output's at `outsAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position among the key blocks says which
    case it is in; the invariant hands the body the accumulator (at anything before the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨HS0, HR, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0]
          · unfold owns; iexists _; isplitr
            swap; · iexact HS0
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, HR, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0]
          · unfold owns; iexists _; isplitr
            swap; · iexact HS0
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      have hz : t.val ≠ 0 := by omega
      rw [PhiS1_castSucc V c t, PhiS1_pos V c _ _ hz]
      · iintro ⟨⟨HS0, HR, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0]
          · unfold owns; iexists _; isplitr
            swap; · iexact HS0
            ipureintro; exact View.read_writes_of_cover _ _ _ _ _ (scover1_C c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      · iintro ⟨⟨HS0, HR, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0]
          · unfold owns; iexists _; isplitr
            swap; · iexact HS0
            ipureintro; exact View.read_writes_of_cover _ _ _ _ _ (scover1_B c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives that back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HR, Hg⟩
  iapply (PhiA1_join c)
  isplitl [HS0]; · iexists _; iexact HS0
  isplitl [HR]; · iexact HR
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Frame

end
-- ==== Proof.BitsRun.lean ====
import proofs.«121333_j25159918420592_1_alg».proof.Proof.BitsRegion0
import proofs.«121333_j25159918420592_1_alg».proof.Proof.BitsRegion1
import Idealize.ShloMosaic.Lib.Pipeline.RegionsLoop

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three host reshapes, the projection region, the attention region

The buffer contents at each boundary are a fold from the launch memory: after the reshapes; after the first region (its
three output arrays at what its write-backs leave); after the second (its output array likewise). Every weakly fair
execution terminates and ends with every unscoped buffer at the last of these. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the three reshapes of the bias vectors (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (the end of the program). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no reshape and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev tadm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tadm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) tadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) tadm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; the accumulator goes into the
    invariant with the other scoped buffers and comes back with its contents forgotten. -/
def reg1 : Pipeline.RegionSeg (pcfgs (F := F)) tadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) tadm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) tadm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and every
    final state holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) tadm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

/-- The same run, also naming what the result array holds: what the attention region's write-backs leave. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v4 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

end Cert.Kernel.Frame

end
-- ==== Proof.IdealRegion0.lean ====
/- REGION 0 of @main (custom_call 0, the projection kernel, pipeline 0), at a PARAMETER `V` — the TensorCore's
   buffer contents when the region is entered: each window's block at a point (`iblk0`), what the body leaves in
   each output window's buffer as a closed function of the input blocks (`out0_9`, `out0_10`, `out0_11`: one
   covering store each, of the payloads `k0_pay1`, `k0_pay2`, `k0_pay3` of the x block, the weight matrix and the
   bias row), the body's separation-logic triple (`sound_kernel0`), the pipeline's proof data (`dat0`) and the
   body obligation at every grid point (`body_obligation0`). Windows 0,1,2 are the [1024,256] row blocks of the
   three activations, 3,5,7 the whole [256,256] weights, 4,6,8 the whole [1,256] biases (fetched at the first
   point only: unfetched, the block index has not moved, so the buffer still holds the block), 9,10,11 the
   [1024,256] row blocks of the three projections, written back at every point. -/
import proofs.«121333_j25159918420592_1_alg».proof.Proof.Gen.KernelIdeal.Launch
import proofs.«121333_j25159918420592_1_alg».proof.Proof.Gen.KernelIdeal.Skeleton
import proofs.«121333_j25159918420592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents [1024,256]: the elaborator's structural look recurses once per coordinate
-- of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block
    index has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block
    index has not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block
    index has not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0

/-! ## What the body leaves in each output window's buffer -/

/-- Window 9's staging buffer after the body, from the blocks of windows 0 (activations), 3 (weights) and 4 (bias):
    its one store, of the payload `k0_pay1`, as a piece covering the buffer. -/
def out0_9 (x0 : Vec F S1024x256 .f32) (x3 : Vec F S256x256 .f32) (x4 : Vec F S1x256 .f32) : Vec F S1024x256 .f32 :=
  View.canon [⟨r0_0, k0_pay1 (View.ld x0 r0_0) (View.ld x3 r0_1) (View.ld x4 r0_2)⟩]

/-- Its store tiles the buffer (checked by evaluation), so it covers it. -/
theorem cover0_9 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-- Window 10's staging buffer after the body, from the blocks of windows 1 (activations), 5 (weights) and 6 (bias):
    its one store, of the payload `k0_pay2`, as a piece covering the buffer. -/
def out0_10 (x1 : Vec F S1024x256 .f32) (x5 : Vec F S256x256 .f32) (x6 : Vec F S1x256 .f32) : Vec F S1024x256 .f32 :=
  View.canon [⟨r0_0, k0_pay2 (View.ld x1 r0_0) (View.ld x5 r0_1) (View.ld x6 r0_2)⟩]

/-- Its store tiles the buffer (checked by evaluation), so it covers it. -/
theorem cover0_10 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-- Window 11's staging buffer after the body, from the blocks of windows 2 (activations), 7 (weights) and 8 (bias):
    its one store, of the payload `k0_pay3`, as a piece covering the buffer. -/
def out0_11 (x2 : Vec F S1024x256 .f32) (x7 : Vec F S256x256 .f32) (x8 : Vec F S1x256 .f32) : Vec F S1024x256 .f32 :=
  View.canon [⟨r0_0, k0_pay3 (View.ld x2 r0_0) (View.ld x7 r0_1) (View.ld x8 r0_2)⟩]

/-- Its store tiles the buffer (checked by evaluation), so it covers it. -/
theorem cover0_11 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-! ## The body's triple -/

set_option maxHeartbeats 4000000 in
/-- The kernel body on whole staging memrefs, the inputs' at read contents `xW` and the outputs' at anything, runs to
    the continuation holding the inputs' as they were and each output's at `out0_W` of the inputs': the printed
    functions are their skeletons, run one memory operation at a time through the part call. -/
theorem sound_kernel0 (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole)
    (x0 : Vec F S1024x256 .f32) (x1 : Vec F S1024x256 .f32) (x2 : Vec F S1024x256 .f32) (x3 : Vec F S256x256 .f32) (x4 : Vec F S1x256 .f32) (x5 : Vec F S256x256 .f32) (x6 : Vec F S1x256 .f32) (x7 : Vec F S256x256 .f32) (x8 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out0_9 x0 x3 x4)
            ∗ owns (c : Thread nD τ) arg11 fullShare (out0_10 x1 x5 x6)
            ∗ owns (c : Thread nD τ) arg12 fullShare (out0_11 x2 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  iexists _; isplitr
  swap; · iexact H11
  ipureintro
  try dsimp only
  exact View.read_writes_eq_canon _ _ _ (cover0_11 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Frame

end
-- ==== Proof.IdealRegion1Runs.lean ====
import proofs.«121333_j25159918420592_1_alg».proof.Proof.Gen.KernelIdeal.Launch
import proofs.«121333_j25159918420592_1_alg».proof.Proof.Gen.KernelIdeal.Skeleton
import proofs.«121333_j25159918420592_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region (the attention kernel), at the contents `V` its arrays hold when it is entered

The grid is 8 × 8: point `t = 8·i + j` reads the `i`-th block of 1024 query rows and the `j`-th block of 1024 key and
value rows, adds that block's contribution to an accumulator kept in a scratch buffer, clears the accumulator first
when `j = 0` and copies it to the output block `i` when `j = 7`. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- "This is the first key block" (`j = 0`), as the body computes it from the second grid coordinate. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last key block" (`j = 7`). -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key block nothing is stored into the output window, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- At the last key block the output window is stored into. -/
theorem liveAt1_3 : ∀ t : Fin cfg1.N, cond1_1 (grid1.coords t) → cfg1.idle 3 (grid1.coords t) = false := by decide +kernel

/-! ## The memrefs the body is called with -/

abbrev VO1_3 : View sig .tc .vmem S1024x256 .f32 := (Memref.whole cc1_stg3_0 : Memref sig .tc .vmem S1024x256 .f32).view
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x256 .f32 := Memref.whole cc1_scratch0
abbrev VS1 : View sig .tc .vmem S1024x256 .f32 := scM1.view

/-! ## The scoped buffers the region does not stage: the accumulator, and the rest -/

/-- The first region's staging buffers, each whole at some contents: this region never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 c) := by
  unfold Rest1
  exact Pipeline.scopedRest_eq_of_list spec1 c [cc1_scratch0, cc0_stg0_0, cc0_stg0_1, cc0_stg1_0, cc0_stg1_1, cc0_stg2_0, cc0_stg2_1, cc0_stg3_0, cc0_stg4_0, cc0_stg5_0, cc0_stg6_0, cc0_stg7_0, cc0_stg8_0, cc0_stg9_0, cc0_stg9_1, cc0_stg10_0, cc0_stg10_1, cc0_stg11_0, cc0_stg11_1] (by decide) (by decide)

/-- What the region is entered with beside its windows: the accumulator at anything, the other scoped buffers, the generator register. -/
theorem PhiA1_split (c : Dev nD) :
    (Pipeline.ΦA spec1 c : sProp 𝕄) ⊢ iprop((∃ d, owns (c : Thread nD τ) scM1 fullShare d) ∗ Rest1 c ∗ (∃ r, prngReg c r)) := by
  unfold Pipeline.ΦA; rw [scopedRest1_split]; simp only [scM1, owns_whole]
  iintro ⟨⟨HS, HR⟩, Hg⟩
  isplitl [HS]; · iexact HS
  isplitl [HR]; · iexact HR
  iexact Hg
theorem PhiA1_join (c : Dev nD) :
    iprop((∃ d, owns (c : Thread nD τ) scM1 fullShare d) ∗ Rest1 c ∗ (∃ r, prngReg c r)) ⊢ (Pipeline.ΦA spec1 c : sProp 𝕄) := by
  unfold Pipeline.ΦA; rw [scopedRest1_split]; simp only [scM1, owns_whole]
  iintro ⟨HS, HR, Hg⟩
  isplitl [HS HR]
  · isplitl [HS]; · iexact HS
    iexact HR
  iexact Hg

end Cert.KernelIdeal.Frame

end
-- ==== Proof.IdealRegion1RunA.lean ====
import proofs.«121333_j25159918420592_1_alg».proof.Proof.IdealRegion1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of the first key block: the accumulator, found at anything, is cleared and then holds this block's contribution; the output buffer is handed back untouched. The pieces each buffer ends with are found by running the body. -/
noncomputable def kernelRun1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealRegion1RunB.lean ====
import proofs.«121333_j25159918420592_1_alg».proof.Proof.IdealRegion1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of a middle key block: the accumulator, found at what the point before left, has this block's contribution added; the output buffer is handed back untouched. The pieces each buffer ends with are found by running the body. -/
noncomputable def kernelRun1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealRegion1RunC.lean ====
import proofs.«121333_j25159918420592_1_alg».proof.Proof.IdealRegion1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of the last key block: the accumulator has this block's contribution added and is copied into the output buffer. The pieces each buffer ends with are found by running the body. -/
noncomputable def kernelRun1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.IdealRegion1.lean ====
import proofs.«121333_j25159918420592_1_alg».proof.Proof.IdealRegion1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: what the accumulator and the output hold point by point, the proof data, the body obligation -/

variable (V : (c : Dev nD) → (b : Ref sig .tc) → Buf (Elt F) ((c : Thread nD τ).loc b))

/-- What case A leaves in the output window's buffer: its pieces read back (none: a placeholder nothing consults, the window being idle there). -/
def out1_A_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) : Vec F S1024x256 .f32 :=
  VO1_3.read (Elt F) (VO1_3.writes (Elt F) VO1_3.junk (kernelRun1_A c i arg2 harg2 arg3 harg3 arg4 harg4 arg5 harg5 arg6 harg6 hc0 hc1 x0 x1 x2).1)
/-- Case A's stores into the accumulator cover it. -/
theorem scover1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y
/-- What case A leaves in the accumulator. -/
def sout1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) : Vec F S1024x256 .f32 :=
  VS1.read (Elt F) (VS1.writes (Elt F) VS1.junk (kernelRun1_A c i arg2 harg2 arg3 harg3 arg4 harg4 arg5 harg5 arg6 harg6 hc0 hc1 x0 x1 x2).2.1)

/-- What case B leaves in the output window's buffer: its pieces read back (none: a placeholder nothing consults, the window being idle there). -/
def out1_B_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) : Vec F S1024x256 .f32 :=
  VO1_3.read (Elt F) (VO1_3.writes (Elt F) VO1_3.junk (kernelRun1_B c i arg2 harg2 arg3 harg3 arg4 harg4 arg5 harg5 arg6 harg6 hc0 hc1 x0 x1 x2 xs0).1)
/-- Case B's stores into the accumulator cover it. -/
theorem scover1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) (y : S1024x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x256.size (by sl_kernel_rfl) y
/-- What case B leaves in the accumulator. -/
def sout1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) : Vec F S1024x256 .f32 :=
  VS1.read (Elt F) (VS1.writes (Elt F) VS1.junk (kernelRun1_B c i arg2 harg2 arg3 harg3 arg4 harg4 arg5 harg5 arg6 harg6 hc0 hc1 x0 x1 x2 xs0).2.1)

/-- At the last key block the one store into the output window covers it. -/
theorem cover1_C_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x256.size (by sl_kernel_rfl) y
/-- What case C leaves in the output window's buffer: its pieces read back. -/
def out1_C_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) : Vec F S1024x256 .f32 :=
  VO1_3.read (Elt F) (VO1_3.writes (Elt F) VO1_3.junk (kernelRun1_C c i arg2 harg2 arg3 harg3 arg4 harg4 arg5 harg5 arg6 harg6 hc0 hc1 x0 x1 x2 xs0).1)
/-- Case C's stores into the accumulator cover it. -/
theorem scover1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) (y : S1024x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x256.size (by sl_kernel_rfl) y
/-- What case C leaves in the accumulator. -/
def sout1_C (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) : Vec F S1024x256 .f32 :=
  VS1.read (Elt F) (VS1.writes (Elt F) VS1.junk (kernelRun1_C c i arg2 harg2 arg3 harg3 arg4 harg4 arg5 harg5 arg6 harg6 hc0 hc1 x0 x1 x2 xs0).2.1)

/-! ## The accumulation -/

/-- What the output window's buffer and the accumulator hold after the body at position `n` (output first): the case
    the point is in, run on the point's memrefs and blocks, the accumulator found at what position `n - 1` left
    (at a first key block it is cleared, so what it held does not matter). -/
def outsAt1 (c : Dev nD) : (n : ℕ) → n < cfg1.N → Vec F S1024x256 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the region is entered with; afterwards the
    accumulator at what the point before left in it, the other scoped buffers and the generator register. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ Rest1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ Rest1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ Rest1 c ∗ (∃ r, prngReg c r)) := by
  cases n with
  | zero => exact absurd rfl hz
  | succ n => rfl

/-! ## The proof data -/

/-- The arrays as the region finds them; after the body each input's buffer at its block and the output's at `outsAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position among the key blocks says which
    case it is in; the invariant hands the body the accumulator (at anything before the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨HS0, HR, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0]
          · unfold owns; iexists _; isplitr
            swap; · iexact HS0
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, HR, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0]
          · unfold owns; iexists _; isplitr
            swap; · iexact HS0
            ipureintro; exact View.read_writes_of_cover _ _ _ _ _ (scover1_A c _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      have hz : t.val ≠ 0 := by omega
      rw [PhiS1_castSucc V c t, PhiS1_pos V c _ _ hz]
      · iintro ⟨⟨HS0, HR, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0]
          · unfold owns; iexists _; isplitr
            swap; · iexact HS0
            ipureintro; exact View.read_writes_of_cover _ _ _ _ _ (scover1_C c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      · iintro ⟨⟨HS0, HR, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0]
          · unfold owns; iexists _; isplitr
            swap; · iexact HS0
            ipureintro; exact View.read_writes_of_cover _ _ _ _ _ (scover1_B c _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives that back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HR, Hg⟩
  iapply (PhiA1_join c)
  isplitl [HS0]; · iexists _; iexact HS0
  isplitl [HR]; · iexact HR
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frame

end
-- ==== Proof.IdealRun.lean ====
import proofs.«121333_j25159918420592_1_alg».proof.Proof.IdealRegion0
import proofs.«121333_j25159918420592_1_alg».proof.Proof.IdealRegion1
import Idealize.ShloMosaic.Lib.Pipeline.RegionsLoop

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three host reshapes, the projection region, the attention region

The buffer contents at each boundary are a fold from the launch memory: after the reshapes; after the first region (its
three output arrays at what its write-backs leave); after the second (its output array likewise). Every weakly fair
execution terminates and ends with every unscoped buffer at the last of these. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the three reshapes of the bias vectors (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (the end of the program). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no reshape and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev tadm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tadm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) tadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) tadm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; the accumulator goes into the
    invariant with the other scoped buffers and comes back with its contents forgotten. -/
def reg1 : Pipeline.RegionSeg (pcfgs (F := F)) tadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) tadm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) tadm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and every
    final state holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) tadm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

/-- The same run, also naming what the result array holds: what the attention region's write-backs leave. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v4 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

end Cert.KernelIdeal.Frame

end
-- ==== Proof.IdealRegion1Pieces.lean ====
import proofs.«121333_j25159918420592_1_alg».proof.Proof.IdealRegion1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: what each case leaves, as the kernel's own payloads

Every store of the body is through the whole-buffer rectangle at zero offsets, so a buffer after a store holds the stored
payload and a load reads the buffer's contents. -/

theorem hz1 : (![0, 0] : Fin S1024x256.rank → Nat) = fun _ => 0 := by
  funext a; match a with | ⟨0, _⟩ => rfl | ⟨1, _⟩ => rfl

/-- At a first key block the accumulator ends at this block's contribution added to the cleared accumulator. -/
theorem sout1_A_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 x1 x2 : Vec F S1024x256 .f32) :
    sout1_A c i arg2 harg2 arg3 harg3 arg4 harg4 arg5 harg5 arg6 harg6 hc0 hc1 x0 x1 x2 = k1_pay2 x0 x1 x2 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A; dsimp only; sl_unfold_words
  rw [View.canon_cons_unit_zero hz1]
  simp only [View.readAt_eq_ld, harg2.read_unread, harg3.read_unread, harg4.read_unread, harg6.read_unread, View.ld_unit_zero (S := S1024x256) hz1, View.readCov_unit_zero (S := S1024x256) arg6.view hz1]

/-- At a middle key block it ends at this block's contribution added to what it held. -/
theorem sout1_B_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 x1 x2 : Vec F S1024x256 .f32) (xs0 : Vec F S1024x256 .f32) :
    sout1_B c i arg2 harg2 arg3 harg3 arg4 harg4 arg5 harg5 arg6 harg6 hc0 hc1 x0 x1 x2 xs0 = k1_pay2 x0 x1 x2 xs0 := by
  unfold sout1_B
  rw [View.read_writes_eq_canon _ _ _ (scover1_B c i arg2 harg2 arg3 harg3 arg4 harg4 arg5 harg5 arg6 harg6 hc0 hc1 x0 x1 x2 xs0)]
  unfold kernelRun1_B; dsimp only; sl_unfold_words
  rw [View.canon_cons_unit_zero hz1]
  simp only [View.readAt_eq_ld, harg2.read_unread, harg3.read_unread, harg4.read_unread, harg6.read_unread, View.ld_unit_zero (S := S1024x256) hz1, View.readCov_unit_zero (S := S1024x256) arg6.view hz1]

/-- At the last key block likewise, -/
theorem sout1_C_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) :
    sout1_C c i arg2 harg2 arg3 harg3 arg4 harg4 arg5 harg5 arg6 harg6 hc0 hc1 x0 x1 x2 xs0 = k1_pay2 x0 x1 x2 xs0 := by
  unfold sout1_C
  rw [View.read_writes_eq_canon _ _ _ (scover1_C c i arg2 harg2 arg3 harg3 arg4 harg4 arg5 harg5 arg6 harg6 hc0 hc1 x0 x1 x2 xs0)]
  unfold kernelRun1_C; dsimp only; sl_unfold_words
  rw [View.canon_cons_unit_zero hz1]
  simp only [View.readAt_eq_ld, harg2.read_unread, harg3.read_unread, harg4.read_unread, harg6.read_unread, View.ld_unit_zero (S := S1024x256) hz1, View.readCov_unit_zero (S := S1024x256) arg6.view hz1]

/-- and the output buffer receives the accumulator's new contents. -/
theorem out1_C_3_eq (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 x1 x2 : Vec F S1024x256 .f32) (xs0 : Vec F S1024x256 .f32) :
    out1_C_3 c i arg2 harg2 arg3 harg3 arg4 harg4 arg5 harg5 arg6 harg6 hc0 hc1 x0 x1 x2 xs0 = k1_pay2 x0 x1 x2 xs0 := by
  unfold out1_C_3
  rw [View.read_writes_eq_canon _ _ _ (cover1_C_3 c i arg2 harg2 arg3 harg3 arg4 harg4 arg5 harg5 arg6 harg6 hc0 hc1 x0 x1 x2 xs0)]
  unfold kernelRun1_C; dsimp only; sl_unfold_words
  rw [View.canon_cons_unit_zero hz1]
  simp only [View.readAt_eq_ld, harg2.read_unread, harg3.read_unread, harg4.read_unread, harg6.read_unread, View.ld_unit_zero (S := S1024x256) hz1, View.readCov_unit_zero (S := S1024x256) arg6.view hz1]

end Cert.KernelIdeal.Frame

end
-- ==== Proof.IdealRegion1Pay.lean ====
/-
  The second kernel's two stored values, read at one element of the [1024, 256] accumulator block.

  The first is the zero block the accumulator starts from. The second is one accumulation step: with x0 a block of
  1024 query rows, x1 a block of 1024 key rows, x2 the matching block of value rows and a the accumulator before the
  step, the stored block at (p, c) is
     a[p, c] + sum over l < 1024 of logistic (sum over d < 256 of x0[p, d] * x1[l, d]) * x2[l, c].
  On the extended reals a change of float format is the identity, a reshape to the same shape is the identity, the
  transposed key block at (d, l) is the key block at (l, d), a matrix product into the zero block is the plain sum over
  the contracted axis, and the lane-wise logistic is `Ideal.logistic`.
-/
import proofs.«121333_j25159918420592_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.PayValue

open Idealize.ShloMosaic Idealize.ShloMosaic.ValueIdx
open Cert.KernelIdeal Cert.KernelIdeal.Gen

/-! ## The zero block -/

/-- The block the accumulator is reset to is zero everywhere. -/
theorem k1_pay1_ix2 (p : Fin 1024) (c : Fin 256) : k1_pay1 (F := Ideal) (ix2 p c) = 0 := by
  unfold k1_pay1
  rw [shapeCast_self]
  exact Ideal.ofBits_zero_f32

/-! ## The two matrix products, into a zero block -/

/-- The left operand's row coordinate is the result's row. -/
theorem scores_lhs0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- The right operand's column coordinate is the result's column. -/
theorem scores_rhs1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- Scores: a [1024, 256] block against a [256, 1024] block, at (p, l), is the sum over the 256 shared coordinates. -/
theorem scores_ix2 (u : FVec Ideal S1024x256 .bf16) (w : FVec Ideal S256x1024 .bf16) (p l : Fin 1024) :
    matmul dot_S1024x256_S256x1024_S1024x1024_1_0_0_1_n_n none u w (constant S1024x1024 .f32 0x00000000#32) (ix2 p l)
      = ∑ k : Fin 256, u (ix2 p k) * w (ix2 k l) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p l) ((contrEquiv1 dot_S1024x256_S256x1024_S1024x1024_1_0_0_1_n_n 256 rfl rfl).symm k) = ix2 p k :=
    funext fun a => Fin.ext (by
      match a with
      | ⟨0, _⟩ => exact scores_lhs0 _ _
      | ⟨1, _⟩ => exact (dot_S1024x256_S256x1024_S1024x1024_1_0_0_1_n_n.lhsIdx_val_of_single rfl _ _).trans hk)
  have er : dot_S1024x256_S256x1024_S1024x1024_1_0_0_1_n_n.rhsIdx (ix2 p l) ((contrEquiv1 dot_S1024x256_S256x1024_S1024x1024_1_0_0_1_n_n 256 rfl rfl).symm k) = ix2 k l :=
    funext fun a => Fin.ext (by
      match a with
      | ⟨0, _⟩ => exact (dot_S1024x256_S256x1024_S1024x1024_1_0_0_1_n_n.rhsIdx_val_of_single rfl _ _).trans hk
      | ⟨1, _⟩ => exact scores_rhs1 _ _)
  rw [el, er]

/-- The left operand's row coordinate is the result's row. -/
theorem weighted_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
/-- The right operand's column coordinate is the result's column. -/
theorem weighted_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- Weights against values: a [1024, 1024] block against a [1024, 256] block, at (p, c), is the sum over the 1024 key
    rows of the block. -/
theorem weighted_ix2 (u : FVec Ideal S1024x1024 .bf16) (w : FVec Ideal S1024x256 .bf16) (p : Fin 1024) (c : Fin 256) :
    matmul dot_S1024x1024_S1024x256_S1024x256_1_0_0_1_n_n none u w (constant S1024x256 .f32 0x00000000#32) (ix2 p c)
      = ∑ k : Fin 1024, u (ix2 p k) * w (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p c) ((contrEquiv1 dot_S1024x1024_S1024x256_S1024x256_1_0_0_1_n_n 1024 rfl rfl).symm k) = ix2 p k :=
    funext fun a => Fin.ext (by
      match a with
      | ⟨0, _⟩ => exact weighted_lhs0 _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 p c) ((contrEquiv1 dot_S1024x1024_S1024x256_S1024x256_1_0_0_1_n_n 1024 rfl rfl).symm k) = ix2 k c :=
    funext fun a => Fin.ext (by
      match a with
      | ⟨0, _⟩ => exact (dot_S1024x1024_S1024x256_S1024x256_1_0_0_1_n_n.rhsIdx_val_of_single rfl _ _).trans hk
      | ⟨1, _⟩ => exact weighted_rhs1 _ _)
  rw [el, er]

/-- The transposed key block at (d, l) is the key block at (l, d). -/
theorem keyT_ix2 (y : FVec Ideal S1024x256 .bf16) (h : S1024x256.Transposes [1, 0] S256x1024) (d : Fin 256) (l : Fin 1024) :
    transpose S256x1024 [1, 0] y h (ix2 d l) = y (ix2 l d) :=
  transpose_apply [1, 0] y h (ix2 d l) (ix2 l d) (fun b => match b with
    | ⟨0, _⟩ => rfl
    | ⟨1, _⟩ => rfl)

/-! ## One accumulation step -/

/-- The stored block of an accumulation step at (p, c): the accumulator there plus the block's 1024 key rows'
    logistic-weighted values. -/
theorem k1_pay2_ix2 (x0 x1 x2 a : Vec Ideal S1024x256 .f32) (p : Fin 1024) (c : Fin 256) :
    k1_pay2 (F := Ideal) x0 x1 x2 a (ix2 p c)
      = a (ix2 p c) + ∑ l : Fin 1024, Ideal.logistic (∑ d : Fin 256, x0 (ix2 p d) * x1 (ix2 l d)) * x2 (ix2 l c) := by
  unfold k1_pay2
  simp only [shapeCast_self]
  refine (addf_apply _ _ (ix2 p c)).trans (congrArg (a (ix2 p c) + ·) ?_)
  refine (weighted_ix2 _ _ p c).trans (Finset.sum_congr rfl fun l _ => ?_)
  refine congrArg₂ (· * ·) ?_ rfl
  show Ideal.logistic _ = _
  refine congrArg Ideal.logistic ?_
  refine (scores_ix2 _ _ p l).trans (Finset.sum_congr rfl fun d _ => ?_)
  exact congrArg (x0 (ix2 p d) * ·) (keyT_ix2 _ _ d l)

end Cert.KernelIdeal.PayValue

end
-- ==== Proof.Spec.lean ====
/-
  The specification of the certificate's result, and the pure algebra of sums that joins the two programs.

  Nine argument arrays: three row arrays x0, x1, x2 of shape [8192, 256], three weight matrices W3, W5, W7 of shape
  [256, 256] and three bias vectors b4, b6, b8 of length 256, every entry an extended real. A projection of a row
  array is  proj x W b r h = (sum over d of x[r, d] * W[h, d]) + b[h]  (the product with the transposed weight matrix,
  plus the bias). With q, k, v the three projections, the result is the sigmoid attention
     attn q k v r c = sum over n of logistic (sum over d of q[r, d] * k[n, d]) * v[n, c],
  where logistic s = 1 / (1 + exp (-s)) on the extended reals. `G` is that array as one function of the nine arguments.

  The algebra: a sum over the 8192 key rows is the sum over eight consecutive blocks of 1024 rows of the blocks'
  sums (`sum_blocks`, `attn_blocks`: commutativity and associativity of + only, so it holds on the extended reals
  with no finiteness), and a left fold  (((0 + p 0) + p 1) + ...) + p n  is the sum of p over 0..n (`acc_eq_sum`).
-/
import Idealize.ShloMosaic.PureOps.Ideal
import Idealize.ShloMosaic.Lib.ValueIdx

noncomputable section

open scoped BigOperators

namespace Cert.Spec

open Idealize.ShloMosaic Idealize.ShloMosaic.ValueIdx

/-- The shape of the three row arrays and of the result. -/
abbrev Sx : Shape := ⟨2, ![8192, 256]⟩
/-- The shape of a weight matrix. -/
abbrev Sw : Shape := ⟨2, ![256, 256]⟩
/-- The shape of a bias vector. -/
abbrev Sb : Shape := ⟨1, ![256]⟩

/-- A linear projection at row `r`, output feature `h`: the row of `x` against row `h` of `W` (the product with the
    transpose of `W`), plus the bias. -/
def proj (x : Sx.Idx → EReal) (W : Sw.Idx → EReal) (b : Sb.Idx → EReal) (r : Fin 8192) (h : Fin 256) : EReal :=
  (∑ d : Fin 256, x (ix2 r d) * W (ix2 h d)) + b (ix1 h)

/-- Sigmoid attention at row `r`, column `c`: every key row `n` weighs its value row by the logistic of the score
    `q r · k n`; there is no normalisation across `n`. -/
def attn (q k v : Fin 8192 → Fin 256 → EReal) (r : Fin 8192) (c : Fin 256) : EReal :=
  ∑ n : Fin 8192, Ideal.logistic (∑ d : Fin 256, q r d * k n d) * v n c

/-- The result array as one function of the nine argument arrays. -/
def G (x0 x1 x2 : Sx.Idx → EReal) (W3 : Sw.Idx → EReal) (b4 : Sb.Idx → EReal) (W5 : Sw.Idx → EReal)
    (b6 : Sb.Idx → EReal) (W7 : Sw.Idx → EReal) (b8 : Sb.Idx → EReal) : Sx.Idx → EReal :=
  fun i => attn (proj x0 W3 b4) (proj x1 W5 b6) (proj x2 W7 b8) (i 0) (i 1)

/-- The result at the index with coordinates `r`, `c`. -/
theorem G_ix2 (x0 x1 x2 : Sx.Idx → EReal) (W3 : Sw.Idx → EReal) (b4 : Sb.Idx → EReal) (W5 : Sw.Idx → EReal)
    (b6 : Sb.Idx → EReal) (W7 : Sw.Idx → EReal) (b8 : Sb.Idx → EReal) (r : Fin 8192) (c : Fin 256) :
    G x0 x1 x2 W3 b4 W5 b6 W7 b8 (ix2 r c) = attn (proj x0 W3 b4) (proj x1 W5 b6) (proj x2 W7 b8) r c := rfl

/-! ## Eight blocks of 1024 rows -/

/-- A row number below 8192 is a block number below 8 and a row below 1024 inside the block. -/
def blockEquiv : Fin 8 × Fin 1024 ≃ Fin 8192 where
  toFun p := ⟨p.1.val * 1024 + p.2.val, by omega⟩
  invFun n := (⟨n.val / 1024, by omega⟩, ⟨n.val % 1024, by omega⟩)
  left_inv p := by
    rcases p with ⟨a, b⟩
    refine Prod.ext (Fin.ext ?_) (Fin.ext ?_)
    · show (a.val * 1024 + b.val) / 1024 = a.val
      omega
    · show (a.val * 1024 + b.val) % 1024 = b.val
      omega
  right_inv n := by
    refine Fin.ext ?_
    show n.val / 1024 * 1024 + n.val % 1024 = n.val
    omega

/-- A sum over 8192 rows is the sum over the eight blocks of each block's sum. -/
theorem sum_blocks {M : Type*} [AddCommMonoid M] (f : Fin 8192 → M) :
    ∑ n : Fin 8192, f n = ∑ j : Fin 8, ∑ l : Fin 1024, f ⟨j.val * 1024 + l.val, by omega⟩ := by
  rw [← Equiv.sum_comp blockEquiv f, Fintype.sum_prod_type]
  rfl

/-- Sigmoid attention, the key rows taken block by block. -/
theorem attn_blocks (q k v : Fin 8192 → Fin 256 → EReal) (r : Fin 8192) (c : Fin 256) :
    attn q k v r c = ∑ j : Fin 8, ∑ l : Fin 1024,
      Ideal.logistic (∑ d : Fin 256, q r d * k ⟨j.val * 1024 + l.val, by omega⟩ d) * v ⟨j.val * 1024 + l.val, by omega⟩ c :=
  sum_blocks (fun n => Ideal.logistic (∑ d : Fin 256, q r d * k n d) * v n c)

/-! ## A left fold is a sum -/

/-- The left fold `(((0 + p 0) + p 1) + …) + p n`. -/
def acc (p : ℕ → EReal) : ℕ → EReal
  | 0 => 0 + p 0
  | n + 1 => acc p n + p (n + 1)

/-- The fold up to `n` is the sum of `p` over `0, …, n`. -/
theorem acc_eq_sum (p : ℕ → EReal) (n : ℕ) : acc p n = ∑ j ∈ Finset.range (n + 1), p j := by
  induction n with
  | zero => rw [acc, zero_add, Finset.sum_range_one]
  | succ n ih => rw [acc, ih, Finset.sum_range_succ (fun j => p j) (n + 1)]

/-- Eight terms folded from the left are their sum. -/
theorem acc_seven (p : ℕ → EReal) : acc p 7 = ∑ j : Fin 8, p j.val := by
  rw [acc_eq_sum, Finset.sum_range]

end Cert.Spec

end
-- ==== Proof.IdealRegion1Final.lean ====
import proofs.«121333_j25159918420592_1_alg».proof.Proof.IdealRegion1Pieces
import proofs.«121333_j25159918420592_1_alg».proof.Proof.IdealRegion1Pay
import proofs.«121333_j25159918420592_1_alg».proof.Proof.Spec
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The second region's result array, as one function of the arrays it reads

With `Q`, `K`, `U` the three arrays the region reads (queries, keys, values, each 8192 × 256), entry `(r, c)` of the
result is `∑ n, σ(∑ d, Q[r,d]·K[n,d]) · U[n,c]` over all 8192 key rows `n`: the kernel adds the eight blocks of 1024 key
rows one after the other into an accumulator that starts at zero, and a finite sum may be grouped into blocks. -/

variable (V : (c : Dev nD) → (b : Ref sig .tc) → Buf (Elt Ideal) ((c : Thread nD τ).loc b))

/-- Row `l` of key block `j` (taken mod 8). -/
def brow (j : ℕ) (l : Fin 1024) : Fin 8192 := ⟨(j % 8) * 1024 + l.val, by have := l.isLt; have := Nat.mod_lt j (show 0 < 8 by decide); omega⟩

/-- Key block `j`'s contribution to entry `(r, c)`. -/
def contrib (Q K U : S8192x256.Idx → EReal) (r : Fin 8192) (c' : Fin 256) (j : ℕ) : EReal :=
  ∑ l : Fin 1024, Ideal.logistic (∑ d : Fin 256, Q (ix2 r d) * K (ix2 (brow j l) d)) * U (ix2 (brow j l) c')

/-- The result array. -/
def Gout (Q K U : S8192x256.Idx → EReal) : S8192x256.Idx → EReal :=
  fun i => Cert.Spec.attn (fun r d => Q (ix2 r d)) (fun n d => K (ix2 n d)) (fun n c' => U (ix2 n c')) (i 0) (i 1)

theorem Gout_ix2 (Q K U : S8192x256.Idx → EReal) (r : Fin 8192) (c' : Fin 256) :
    Gout Q K U (ix2 r c') = ∑ j : Fin 8, contrib Q K U r c' j.val := by
  show Cert.Spec.attn _ _ _ r c' = _
  rw [Cert.Spec.attn_blocks]
  refine Finset.sum_congr rfl fun j _ => ?_
  unfold contrib
  refine Finset.sum_congr rfl fun l _ => ?_
  have e : (⟨j.val * 1024 + l.val, by have := j.isLt; have := l.isLt; omega⟩ : Fin 8192) = brow j.val l := by
    apply Fin.ext; show j.val * 1024 + l.val = (j.val % 8) * 1024 + l.val; rw [Nat.mod_eq_of_lt j.isLt]
  rw [e]

/-! ## The windows' block indices, decided over the grid -/

theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

theorem tlt (t : Fin cfg1.N) : t.val < 64 := lt_of_lt_of_eq t.isLt (show cfg1.N = 64 from N_1)

/-- Row `p` of query block `i`. -/
def qrow (i : ℕ) (p : Fin 1024) : Fin 8192 := ⟨(i % 8) * 1024 + p.val, by have := p.isLt; have := Nat.mod_lt i (show 0 < 8 by decide); omega⟩

/-- The query window's block at point `t` is rows `1024·(t/8) …` of the query array. -/
theorem iblk1_0_apply (c : Dev nD) (t : Fin cfg1.N) (p : Fin 1024) (d : Fin 256) :
    iblk1 V c 0 t (ix2 p d) = V c main_v3_0 (ix2 (qrow (t.val / 8) p) d) := by
  obtain ⟨e0, e1, -⟩ := idx1 t
  have ht := tlt t
  show V c main_v3_0 (((cfg1.win 0).blk t).view.emb (ix2 p d)) = _
  refine congrArg _ ?_
  funext a; apply Fin.ext
  match a with
  | ⟨0, _⟩ => show win1_0.index t (0 : Fin 2) * 1024 + 1 * p.val = ((t.val / 8) % 8) * 1024 + p.val; rw [e0, Nat.mod_eq_of_lt (by omega)]; omega
  | ⟨1, _⟩ => show win1_0.index t (1 : Fin 2) * 256 + 1 * d.val = d.val; rw [e1]; omega

/-- The key window's block at point `t` is key block `t mod 8`. -/
theorem iblk1_1_apply (c : Dev nD) (t : Fin cfg1.N) (l : Fin 1024) (d : Fin 256) :
    iblk1 V c 1 t (ix2 l d) = V c main_v3_1 (ix2 (brow t.val l) d) := by
  obtain ⟨-, -, e0, e1, -⟩ := idx1 t
  show V c main_v3_1 (((cfg1.win 1).blk t).view.emb (ix2 l d)) = _
  refine congrArg _ ?_
  funext a; apply Fin.ext
  match a with
  | ⟨0, _⟩ => show win1_1.index t (0 : Fin 2) * 1024 + 1 * l.val = (t.val % 8) * 1024 + l.val; rw [e0]; omega
  | ⟨1, _⟩ => show win1_1.index t (1 : Fin 2) * 256 + 1 * d.val = d.val; rw [e1]; omega

/-- The value window's block likewise. -/
theorem iblk1_2_apply (c : Dev nD) (t : Fin cfg1.N) (l : Fin 1024) (d : Fin 256) :
    iblk1 V c 2 t (ix2 l d) = V c main_v3_2 (ix2 (brow t.val l) d) := by
  obtain ⟨-, -, -, -, e0, e1, -⟩ := idx1 t
  show V c main_v3_2 (((cfg1.win 2).blk t).view.emb (ix2 l d)) = _
  refine congrArg _ ?_
  funext a; apply Fin.ext
  match a with
  | ⟨0, _⟩ => show win1_2.index t (0 : Fin 2) * 1024 + 1 * l.val = (t.val % 8) * 1024 + l.val; rw [e0]; omega
  | ⟨1, _⟩ => show win1_2.index t (1 : Fin 2) * 256 + 1 * d.val = d.val; rw [e1]; omega

/-- One point's addition: the accumulator's entry plus this key block's contribution. -/
theorem step_apply (c : Dev nD) (t : Fin cfg1.N) (a : Vec Ideal S1024x256 .f32) (p : Fin 1024) (c' : Fin 256) :
    k1_pay2 (iblk1 V c 0 t) (iblk1 V c 1 t) (iblk1 V c 2 t) a (ix2 p c')
      = a (ix2 p c') + contrib (V c main_v3_0) (V c main_v3_1) (V c main_v3_2) (qrow (t.val / 8) p) c' t.val := by
  rw [Cert.KernelIdeal.PayValue.k1_pay2_ix2]
  unfold contrib
  simp only [iblk1_0_apply, iblk1_1_apply, iblk1_2_apply]

/-- A block's contribution depends on the block number only through its residue mod 8. -/
theorem contrib_congr (Q K U : S8192x256.Idx → EReal) (r : Fin 8192) (c' : Fin 256) {j j' : ℕ} (h : j % 8 = j' % 8) :
    contrib Q K U r c' j = contrib Q K U r c' j' := by
  unfold contrib
  have e : ∀ l, brow j l = brow j' l := fun l => Fin.ext (by show (j % 8) * 1024 + l.val = (j' % 8) * 1024 + l.val; rw [h])
  simp only [e]

/-- THE ACCUMULATION, read at an entry: after the point at position `n` the accumulator's entry `(p, c')` is the
    left-to-right sum, from zero, of the contributions of key blocks `0 … n mod 8` to row `p` of query block `n / 8`. -/
theorem scratch_apply (c : Dev nD) : ∀ (n : ℕ) (hn : n < cfg1.N) (p : Fin 1024) (c' : Fin 256),
    (outsAt1 V c n hn).2 (ix2 p c') = Cert.Spec.acc (contrib (V c main_v3_0) (V c main_v3_1) (V c main_v3_2) (qrow (n / 8) p) c') (n % 8) := by
  intro n
  induction n with
  | zero =>
    intro hn p c'
    have h := congrArg Prod.snd (outsAt1_A V c ⟨0, hn⟩ (Nat.zero_mod _) (fun h => by have h' : (0 : ℕ) % 8 = 7 := h; omega))
    rw [show (outsAt1 V c 0 hn).2 = _ from h, sout1_A_eq]
    show k1_pay2 _ _ _ _ (ix2 p c') = _
    rw [step_apply V c ⟨0, hn⟩, Cert.KernelIdeal.PayValue.k1_pay1_ix2]
    rfl
  | succ n ih =>
    intro hn p c'
    have hN : n + 1 < 64 := lt_of_lt_of_eq hn (show cfg1.N = 64 from N_1)
    by_cases h0 : (n + 1) % 8 = 0
    · have h1 : ¬ (n + 1) % 8 = 7 := by omega
      have h := congrArg Prod.snd (outsAt1_A V c ⟨n + 1, hn⟩ h0 h1)
      rw [show (outsAt1 V c (n + 1) hn).2 = _ from h, sout1_A_eq]
      show k1_pay2 _ _ _ _ (ix2 p c') = _
      rw [step_apply V c ⟨n + 1, hn⟩, Cert.KernelIdeal.PayValue.k1_pay1_ix2, h0]
      show 0 + contrib _ _ _ _ c' (n + 1) = 0 + contrib _ _ _ _ c' 0
      rw [contrib_congr _ _ _ _ _ (show (n + 1) % 8 = 0 % 8 from h0)]
    · have e8 : (n + 1) / 8 = n / 8 := by omega
      have em : (n + 1) % 8 = n % 8 + 1 := by omega
      have hprev : (outsAt1 V c ((⟨n + 1, hn⟩ : Fin cfg1.N).val - 1) (Nat.lt_of_le_of_lt (Nat.sub_le _ _) (⟨n + 1, hn⟩ : Fin cfg1.N).isLt)).2 (ix2 p c')
          = Cert.Spec.acc (contrib (V c main_v3_0) (V c main_v3_1) (V c main_v3_2) (qrow (n / 8) p) c') (n % 8) := ih (Nat.lt_of_succ_lt hn) p c'
      by_cases h1 : (n + 1) % 8 = 7
      · have h := congrArg Prod.snd (outsAt1_C V c ⟨n + 1, hn⟩ h0 h1)
        rw [show (outsAt1 V c (n + 1) hn).2 = _ from h, sout1_C_eq]
        show k1_pay2 _ _ _ _ (ix2 p c') = _
        rw [step_apply V c ⟨n + 1, hn⟩, hprev]
        show _ + contrib _ _ _ (qrow ((n + 1) / 8) p) c' (n + 1) = Cert.Spec.acc _ ((n + 1) % 8)
        rw [e8, em]
        show _ = Cert.Spec.acc _ (n % 8) + contrib _ _ _ _ c' (n % 8 + 1)
        rw [contrib_congr _ _ _ _ _ (show (n + 1) % 8 = (n % 8 + 1) % 8 by omega)]
      · have h := congrArg Prod.snd (outsAt1_B V c ⟨n + 1, hn⟩ h0 h1)
        rw [show (outsAt1 V c (n + 1) hn).2 = _ from h, sout1_B_eq]
        show k1_pay2 _ _ _ _ (ix2 p c') = _
        rw [step_apply V c ⟨n + 1, hn⟩, hprev]
        show _ + contrib _ _ _ (qrow ((n + 1) / 8) p) c' (n + 1) = Cert.Spec.acc _ ((n + 1) % 8)
        rw [e8, em]
        show _ = Cert.Spec.acc _ (n % 8) + contrib _ _ _ _ c' (n % 8 + 1)
        rw [contrib_congr _ _ _ _ _ (show (n + 1) % 8 = (n % 8 + 1) % 8 by omega)]

/-- At a last key block the output buffer receives the finished sums: entry `(p, c')` of the output block is entry
    `(1024·(t/8) + p, c')` of the result array. -/
theorem out_apply (c : Dev nD) (t : Fin cfg1.N) (h1 : t.val % 8 = 7) (p : Fin 1024) (c' : Fin 256) :
    (outsAt1 V c t.val t.isLt).1 (ix2 p c') = Gout (V c main_v3_0) (V c main_v3_1) (V c main_v3_2) (ix2 (qrow (t.val / 8) p) c') := by
  have h0 : ¬ t.val % 8 = 0 := by omega
  have ht := tlt t
  have h := congrArg Prod.fst (outsAt1_C V c t h0 h1)
  rw [show (outsAt1 V c t.val t.isLt).1 = _ from h, out1_C_3_eq]
  show k1_pay2 _ _ _ _ (ix2 p c') = _
  rw [step_apply V c t, scratch_apply V c (t.val - 1) _ p c', Gout_ix2, ← Cert.Spec.acc_seven]
  have e8 : (t.val - 1) / 8 = t.val / 8 := by omega
  have em : (t.val - 1) % 8 = 6 := by omega
  rw [e8, em]
  show _ = Cert.Spec.acc _ 6 + contrib _ _ _ _ c' 7
  rw [contrib_congr _ _ _ _ _ (show t.val % 8 = 7 % 8 from h1)]

/-- What a last-key-block point writes back is its block of the result array. -/
theorem flushed1_3_eq (c : Dev nD) (t : Fin cfg1.N) (hf : (cfg1.win 3).flush t = true) :
    (dat1 V c).flushed 3 t = ((cfg1.win 3).blk t).view.read (Elt Ideal) (Gout (V c main_v3_0) (V c main_v3_1) (V c main_v3_2)) := by
  have h1 : t.val % 8 = 7 := (flush1_3 t).mp hf
  have ht := tlt t
  obtain ⟨-, -, -, -, -, -, e0, e1⟩ := idx1 t
  show (cfg1.win 3).cut (grid1.coords t) ((dat1 V c).after 3 t) = _
  rw [after1_3]
  funext y
  obtain ⟨p, c', rfl⟩ : ∃ (p : Fin 1024) (c' : Fin 256), y = ix2 p c' := ⟨y 0, y 1, eq_ix2 y⟩
  show (outsAt1 V c t.val t.isLt).1 (ix2 p c') = Gout (V c main_v3_0) (V c main_v3_1) (V c main_v3_2) (((cfg1.win 3).blk t).view.emb (ix2 p c'))
  rw [out_apply V c t h1]
  refine congrArg _ ?_
  funext a; apply Fin.ext
  match a with
  | ⟨0, _⟩ => show ((t.val / 8) % 8) * 1024 + p.val = win1_3.index t (0 : Fin 2) * 1024 + 1 * p.val; rw [e0, Nat.mod_eq_of_lt (by omega)]; omega
  | ⟨1, _⟩ => show c'.val = win1_3.index t (1 : Fin 2) * 256 + 1 * c'.val; rw [e1]; omega

/-- An index of the result array is in point `t`'s output block iff each coordinate is in the block's range. -/
theorem mem_blk1_3 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v4).slice (win1_3.rect t)).set ↔ _
  rw [View.set_slice_whole, Rect.mem_set_unit]
  exact Iff.rfl

/-- Every row of the result array is written back by the last-key-block point of its query block. -/
theorem cover1_3 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hlt : 8 * ((i 0).val / 1024) + 7 < cfg1.N := by rw [show cfg1.N = 64 from N_1]; omega
  obtain ⟨-, -, -, -, -, -, e0, e1⟩ := idx1 ⟨8 * ((i 0).val / 1024) + 7, hlt⟩
  refine ⟨⟨8 * ((i 0).val / 1024) + 7, hlt⟩, (flush1_3 _).mpr (by show (8 * ((i 0).val / 1024) + 7) % 8 = 7; omega), ?_⟩
  rw [mem_blk1_3]
  intro a
  match a with
  | ⟨0, _⟩ =>
    show win1_3.index ⟨8 * ((i 0).val / 1024) + 7, hlt⟩ (0 : Fin 2) * 1024 ≤ (i 0).val ∧ (i 0).val < win1_3.index ⟨8 * ((i 0).val / 1024) + 7, hlt⟩ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_3.index ⟨8 * ((i 0).val / 1024) + 7, hlt⟩ (1 : Fin 2) * 256 ≤ (i 1).val ∧ (i 1).val < win1_3.index ⟨8 * ((i 0).val / 1024) + 7, hlt⟩ (1 : Fin 2) * 256 + 256
    rw [e1]; omega

/-- THE RESULT ARRAY after the region: the attention sums of the three arrays the region read. -/
theorem final1_3 (c : Dev nD) : (dat1 V c).arrAt 3 cfg1.N = Gout (V c main_v3_0) (V c main_v3_1) (V c main_v3_2) :=
  (dat1 V c).arrAt_eq_of_cover 3 _ (fun t hf => flushed1_3_eq V c t hf) cover1_3

end Cert.KernelIdeal.Frame

end
-- ==== Proof.IdealRegion0Value.lean ====
/- REGION 0's VALUE at the ideal numbers: each projection payload, read at one element, is the row of the
   activation block times the row of the weight matrix (the kernel multiplies by the transposed weights), plus the
   bias entry of that column:  pay x W b (p, h) = (∑ d, x (p, d) * W (h, d)) + b (0, h).  The format changes are the
   identity on extended reals; the matrix product into the zero splat is the plain sum over the contracted
   coordinate; the bias row is broadcast along the rows. -/
import proofs.«121333_j25159918420592_1_alg».proof.Proof.IdealRegion0
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Frame

open Cert.KernelIdeal Cert.KernelIdeal.Gen
open Idealize.ShloMosaic Idealize.ShloMosaic.ValueIdx

/-- The [1024,256] × [256,256] product into the zero splat, at the ideal values and at one element: the sum over
    the contracted coordinate of the products of the entries. -/
theorem matmul0_apply (A : FVec Ideal S1024x256 .bf16) (B : FVec Ideal S256x256 .bf16) (p : Fin 1024) (h : Fin 256) :
    matmul dot_S1024x256_S256x256_S1024x256_1_0_0_1_n_n none A B (constant (F := Ideal) S1024x256 .f32 0x00000000#32) (ix2 p h)
      = ∑ d : Fin 256, A (ix2 p d) * B (ix2 d h) := by
  show FloatOps.matmul _ none A B _ (ix2 p h) = _
  rw [Ideal.matmul_constant_zero_apply,
    ← Equiv.sum_comp (contrEquiv1 dot_S1024x256_S256x256_S1024x256_1_0_0_1_n_n 256 rfl rfl).symm]
  refine Finset.sum_congr rfl fun d _ => ?_
  have c2 := contrEquiv1_symm_val dot_S1024x256_S256x256_S1024x256_1_0_0_1_n_n 256 rfl rfl d
  have l2 : dot_S1024x256_S256x256_S1024x256_1_0_0_1_n_n.lhsIdx (ix2 p h)
      ((contrEquiv1 dot_S1024x256_S256x256_S1024x256_1_0_0_1_n_n 256 rfl rfl).symm d) = ix2 p d := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact c2
  have r2 : dot_S1024x256_S256x256_S1024x256_1_0_0_1_n_n.rhsIdx (ix2 p h)
      ((contrEquiv1 dot_S1024x256_S256x256_S1024x256_1_0_0_1_n_n 256 rfl rfl).symm d) = ix2 d h := by
    funext ax; apply Fin.ext
    match ax with
    | ⟨0, _⟩ => simp [DotDims.rhsIdx, dot_S1024x256_S256x256_S1024x256_1_0_0_1_n_n]; exact c2
    | ⟨1, _⟩ => simp [DotDims.rhsIdx, dot_S1024x256_S256x256_S1024x256_1_0_0_1_n_n]; rfl
  rw [l2, r2]

/-- The bias row, cast to its own shape and broadcast along the 1024 rows, reads its column's entry. -/
theorem bias0_apply (b : FVec Ideal S1x256 .f32) (p : Fin 1024) (h : Fin 256) :
    broadcastTo S1024x256 (shapeCast S1x256 b shapeCasts_S1x256_S1x256) broadcasts_S1x256_S1024x256 (ix2 p h) = b (ix2 0 h) := by
  rw [shapeCast_self]
  exact broadcastTo_apply b _ (ix2 p h) (ix2 0 h) fun a => match a with | ⟨0, _⟩ => rfl | ⟨1, _⟩ => rfl

/-- The projection payload shared by the three stores, at one element. -/
theorem pay0_apply (x : FVec Ideal S1024x256 .f32) (W : FVec Ideal S256x256 .f32) (b : FVec Ideal S1x256 .f32) (p : Fin 1024) (h : Fin 256) :
    addf (matmul dot_S1024x256_S256x256_S1024x256_1_0_0_1_n_n none (truncf .bf16 x bitsLt_bf16_f32)
        (transpose S256x256 [1, 0] (truncf .bf16 W bitsLt_bf16_f32) transposes_S256x256_p1_0_S256x256)
        (constant (F := Ideal) S1024x256 .f32 0x00000000#32))
      (broadcastTo S1024x256 (shapeCast S1x256 b shapeCasts_S1x256_S1x256) broadcasts_S1x256_S1024x256) (ix2 p h)
      = (∑ d : Fin 256, x (ix2 p d) * W (ix2 h d)) + b (ix2 0 h) := by
  rw [addf_apply, matmul0_apply, bias0_apply]
  congr 1
  refine Finset.sum_congr rfl fun d _ => ?_
  rw [transpose_ix2_apply]
  rfl

/-- Window 9's payload at one element. -/
theorem k0_pay1_apply (x0 : Vec Ideal S1024x256 .f32) (W : Vec Ideal S256x256 .f32) (b : Vec Ideal S1x256 .f32) (p : Fin 1024) (h : Fin 256) :
    k0_pay1 x0 W b (ix2 p h) = (∑ d : Fin 256, x0 (ix2 p d) * W (ix2 h d)) + b (ix2 0 h) := by
  unfold k0_pay1
  exact pay0_apply x0 W b p h

/-- Window 10's payload at one element. -/
theorem k0_pay2_apply (x1 : Vec Ideal S1024x256 .f32) (W : Vec Ideal S256x256 .f32) (b : Vec Ideal S1x256 .f32) (p : Fin 1024) (h : Fin 256) :
    k0_pay2 x1 W b (ix2 p h) = (∑ d : Fin 256, x1 (ix2 p d) * W (ix2 h d)) + b (ix2 0 h) := by
  unfold k0_pay2
  exact pay0_apply x1 W b p h

/-- Window 11's payload at one element. -/
theorem k0_pay3_apply (x2 : Vec Ideal S1024x256 .f32) (W : Vec Ideal S256x256 .f32) (b : Vec Ideal S1x256 .f32) (p : Fin 1024) (h : Fin 256) :
    k0_pay3 x2 W b (ix2 p h) = (∑ d : Fin 256, x2 (ix2 p d) * W (ix2 h d)) + b (ix2 0 h) := by
  unfold k0_pay3
  exact pay0_apply x2 W b p h

end Cert.KernelIdeal.Frame

end
-- ==== Proof.IdealRegion0Final.lean ====
/- REGION 0's three output arrays after the region, at the ideal numbers, as ONE function of the arrays the region
   finds: entry (r, h) of the array window 9 writes is row r of the first activation array times row h of the first
   weight matrix plus the first bias at column h — `Cert.Spec.proj` — and likewise windows 10 and 11 with the second
   and third triples. Grid point t writes rows 1024 t … 1024 t + 1023 of each output (every point writes back), the
   activation window moves with it, the weight and bias windows stay at block (0, 0); so what point t writes back is
   block t of the projection of the whole arrays, and row r lies in the block of point r / 1024. -/
import proofs.«121333_j25159918420592_1_alg».proof.Proof.IdealRegion0Value
import proofs.«121333_j25159918420592_1_alg».proof.Proof.Spec

noncomputable section

open scoped BigOperators

namespace Cert.KernelIdeal.Frame

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, as the constant function. -/
theorem hz0 : (![0, 0] : Fin 2 → Nat) = fun _ => 0 := funext fun a => by fin_cases a <;> rfl

/-- The projection of whole arrays, as an array: entry `i` is row `i 0` of `x` against row `i 1` of `W`, plus the
    [1,256] bias array's entry in column `i 1`. -/
def P0 (x : S8192x256.Idx → EReal) (W : S256x256.Idx → EReal) (b : S1x256.Idx → EReal) : S8192x256.Idx → EReal :=
  fun i => Cert.Spec.proj x W (fun j => b (ix2 0 (j 0))) (i 0) (i 1)

/-- At the index with coordinates `r`, `h`. -/
theorem P0_ix2 (x : S8192x256.Idx → EReal) (W : S256x256.Idx → EReal) (b : S1x256.Idx → EReal) (r : Fin 8192) (h : Fin 256) :
    P0 x W b (ix2 r h) = (∑ d : Fin 256, x (ix2 r d) * W (ix2 h d)) + b (ix2 0 h) := rfl

/-- The printed index maps, decided over the eight grid points: the activation windows and the output windows are at
    block (t, 0), the weight and bias windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Row `p` of point `t`'s block is row `1024 t + p` of the array. -/
def rowAt (t : Fin cfg0.N) (p : Fin 1024) : Fin 8192 :=
  ⟨t.val * 1024 + p.val, by
    have ht : t.val < 8 := lt_of_lt_of_eq (t.isLt : t.val < grid0.N) N_0
    have := p.isLt; omega⟩

/-- Window 0's block at point `t` sits at rows `1024 t …` of its array. -/
theorem emb0_0 (t : Fin cfg0.N) (p : Fin 1024) (d : Fin 256) :
    ((cfg0.win 0).blk t).view.emb (ix2 p d) = ix2 (rowAt t p) d := by
  have e := idx_facts0 t
  funext a; apply Fin.ext
  match a with
  | ⟨0, _⟩ => show win0_0.index t (0 : Fin 2) * 1024 + 1 * p.val = t.val * 1024 + p.val; omega
  | ⟨1, _⟩ => show win0_0.index t (1 : Fin 2) * 256 + 1 * d.val = d.val; omega

/-- Window 1's block at point `t` sits at rows `1024 t …` of its array. -/
theorem emb0_1 (t : Fin cfg0.N) (p : Fin 1024) (d : Fin 256) :
    ((cfg0.win 1).blk t).view.emb (ix2 p d) = ix2 (rowAt t p) d := by
  have e := idx_facts0 t
  funext a; apply Fin.ext
  match a with
  | ⟨0, _⟩ => show win0_1.index t (0 : Fin 2) * 1024 + 1 * p.val = t.val * 1024 + p.val; omega
  | ⟨1, _⟩ => show win0_1.index t (1 : Fin 2) * 256 + 1 * d.val = d.val; omega

/-- Window 2's block at point `t` sits at rows `1024 t …` of its array. -/
theorem emb0_2 (t : Fin cfg0.N) (p : Fin 1024) (d : Fin 256) :
    ((cfg0.win 2).blk t).view.emb (ix2 p d) = ix2 (rowAt t p) d := by
  have e := idx_facts0 t
  funext a; apply Fin.ext
  match a with
  | ⟨0, _⟩ => show win0_2.index t (0 : Fin 2) * 1024 + 1 * p.val = t.val * 1024 + p.val; omega
  | ⟨1, _⟩ => show win0_2.index t (1 : Fin 2) * 256 + 1 * d.val = d.val; omega

/-- Window 9's block at point `t` sits at rows `1024 t …` of its array. -/
theorem emb0_9 (t : Fin cfg0.N) (p : Fin 1024) (d : Fin 256) :
    ((cfg0.win 9).blk t).view.emb (ix2 p d) = ix2 (rowAt t p) d := by
  have e := idx_facts0 t
  funext a; apply Fin.ext
  match a with
  | ⟨0, _⟩ => show win0_9.index t (0 : Fin 2) * 1024 + 1 * p.val = t.val * 1024 + p.val; omega
  | ⟨1, _⟩ => show win0_9.index t (1 : Fin 2) * 256 + 1 * d.val = d.val; omega

/-- Window 10's block at point `t` sits at rows `1024 t …` of its array. -/
theorem emb0_10 (t : Fin cfg0.N) (p : Fin 1024) (d : Fin 256) :
    ((cfg0.win 10).blk t).view.emb (ix2 p d) = ix2 (rowAt t p) d := by
  have e := idx_facts0 t
  funext a; apply Fin.ext
  match a with
  | ⟨0, _⟩ => show win0_10.index t (0 : Fin 2) * 1024 + 1 * p.val = t.val * 1024 + p.val; omega
  | ⟨1, _⟩ => show win0_10.index t (1 : Fin 2) * 256 + 1 * d.val = d.val; omega

/-- Window 11's block at point `t` sits at rows `1024 t …` of its array. -/
theorem emb0_11 (t : Fin cfg0.N) (p : Fin 1024) (d : Fin 256) :
    ((cfg0.win 11).blk t).view.emb (ix2 p d) = ix2 (rowAt t p) d := by
  have e := idx_facts0 t
  funext a; apply Fin.ext
  match a with
  | ⟨0, _⟩ => show win0_11.index t (0 : Fin 2) * 1024 + 1 * p.val = t.val * 1024 + p.val; omega
  | ⟨1, _⟩ => show win0_11.index t (1 : Fin 2) * 256 + 1 * d.val = d.val; omega

/-- Window 3's block is the whole matrix at every point. -/
theorem emb0_3 (t : Fin cfg0.N) (h : Fin 256) (d : Fin 256) :
    ((cfg0.win 3).blk t).view.emb (ix2 h d) = ix2 h d := by
  have e := idx_facts0 t
  funext a; apply Fin.ext
  match a with
  | ⟨0, _⟩ => show win0_3.index t (0 : Fin 2) * 256 + 1 * h.val = h.val; omega
  | ⟨1, _⟩ => show win0_3.index t (1 : Fin 2) * 256 + 1 * d.val = d.val; omega

/-- Window 5's block is the whole matrix at every point. -/
theorem emb0_5 (t : Fin cfg0.N) (h : Fin 256) (d : Fin 256) :
    ((cfg0.win 5).blk t).view.emb (ix2 h d) = ix2 h d := by
  have e := idx_facts0 t
  funext a; apply Fin.ext
  match a with
  | ⟨0, _⟩ => show win0_5.index t (0 : Fin 2) * 256 + 1 * h.val = h.val; omega
  | ⟨1, _⟩ => show win0_5.index t (1 : Fin 2) * 256 + 1 * d.val = d.val; omega

/-- Window 7's block is the whole matrix at every point. -/
theorem emb0_7 (t : Fin cfg0.N) (h : Fin 256) (d : Fin 256) :
    ((cfg0.win 7).blk t).view.emb (ix2 h d) = ix2 h d := by
  have e := idx_facts0 t
  funext a; apply Fin.ext
  match a with
  | ⟨0, _⟩ => show win0_7.index t (0 : Fin 2) * 256 + 1 * h.val = h.val; omega
  | ⟨1, _⟩ => show win0_7.index t (1 : Fin 2) * 256 + 1 * d.val = d.val; omega

/-- Window 4's block is the whole bias row at every point. -/
theorem emb0_4 (t : Fin cfg0.N) (z : Fin 1) (h : Fin 256) :
    ((cfg0.win 4).blk t).view.emb (ix2 z h) = ix2 z h := by
  have e := idx_facts0 t
  funext a; apply Fin.ext
  match a with
  | ⟨0, _⟩ => show win0_4.index t (0 : Fin 2) * 1 + 1 * z.val = z.val; omega
  | ⟨1, _⟩ => show win0_4.index t (1 : Fin 2) * 256 + 1 * h.val = h.val; omega

/-- Window 6's block is the whole bias row at every point. -/
theorem emb0_6 (t : Fin cfg0.N) (z : Fin 1) (h : Fin 256) :
    ((cfg0.win 6).blk t).view.emb (ix2 z h) = ix2 z h := by
  have e := idx_facts0 t
  funext a; apply Fin.ext
  match a with
  | ⟨0, _⟩ => show win0_6.index t (0 : Fin 2) * 1 + 1 * z.val = z.val; omega
  | ⟨1, _⟩ => show win0_6.index t (1 : Fin 2) * 256 + 1 * h.val = h.val; omega

/-- Window 8's block is the whole bias row at every point. -/
theorem emb0_8 (t : Fin cfg0.N) (z : Fin 1) (h : Fin 256) :
    ((cfg0.win 8).blk t).view.emb (ix2 z h) = ix2 z h := by
  have e := idx_facts0 t
  funext a; apply Fin.ext
  match a with
  | ⟨0, _⟩ => show win0_8.index t (0 : Fin 2) * 1 + 1 * z.val = z.val; omega
  | ⟨1, _⟩ => show win0_8.index t (1 : Fin 2) * 256 + 1 * h.val = h.val; omega

/-! ## The input windows' blocks at an index, off the arrays the region finds -/

theorem iblk0_0_apply (c : Dev nD) (t : Fin cfg0.N) (p : Fin 1024) (d : Fin 256) :
    iblk0 V c 0 t (ix2 p d) = (V c main_arg0 : S8192x256.Idx → EReal) (ix2 (rowAt t p) d) := by
  show (V c main_arg0 : S8192x256.Idx → EReal) (((cfg0.win 0).blk t).view.emb (ix2 p d)) = _
  rw [emb0_0]

theorem iblk0_1_apply (c : Dev nD) (t : Fin cfg0.N) (p : Fin 1024) (d : Fin 256) :
    iblk0 V c 1 t (ix2 p d) = (V c main_arg1 : S8192x256.Idx → EReal) (ix2 (rowAt t p) d) := by
  show (V c main_arg1 : S8192x256.Idx → EReal) (((cfg0.win 1).blk t).view.emb (ix2 p d)) = _
  rw [emb0_1]

theorem iblk0_2_apply (c : Dev nD) (t : Fin cfg0.N) (p : Fin 1024) (d : Fin 256) :
    iblk0 V c 2 t (ix2 p d) = (V c main_arg2 : S8192x256.Idx → EReal) (ix2 (rowAt t p) d) := by
  show (V c main_arg2 : S8192x256.Idx → EReal) (((cfg0.win 2).blk t).view.emb (ix2 p d)) = _
  rw [emb0_2]

theorem iblk0_3_apply (c : Dev nD) (t : Fin cfg0.N) (h : Fin 256) (d : Fin 256) :
    iblk0 V c 3 t (ix2 h d) = (V c main_arg3 : S256x256.Idx → EReal) (ix2 h d) := by
  show (V c main_arg3 : S256x256.Idx → EReal) (((cfg0.win 3).blk t).view.emb (ix2 h d)) = _
  rw [emb0_3]

theorem iblk0_5_apply (c : Dev nD) (t : Fin cfg0.N) (h : Fin 256) (d : Fin 256) :
    iblk0 V c 5 t (ix2 h d) = (V c main_arg5 : S256x256.Idx → EReal) (ix2 h d) := by
  show (V c main_arg5 : S256x256.Idx → EReal) (((cfg0.win 5).blk t).view.emb (ix2 h d)) = _
  rw [emb0_5]

theorem iblk0_7_apply (c : Dev nD) (t : Fin cfg0.N) (h : Fin 256) (d : Fin 256) :
    iblk0 V c 7 t (ix2 h d) = (V c main_arg7 : S256x256.Idx → EReal) (ix2 h d) := by
  show (V c main_arg7 : S256x256.Idx → EReal) (((cfg0.win 7).blk t).view.emb (ix2 h d)) = _
  rw [emb0_7]

theorem iblk0_4_apply (c : Dev nD) (t : Fin cfg0.N) (z : Fin 1) (h : Fin 256) :
    iblk0 V c 4 t (ix2 z h) = (V c main_v0 : S1x256.Idx → EReal) (ix2 z h) := by
  show (V c main_v0 : S1x256.Idx → EReal) (((cfg0.win 4).blk t).view.emb (ix2 z h)) = _
  rw [emb0_4]

theorem iblk0_6_apply (c : Dev nD) (t : Fin cfg0.N) (z : Fin 1) (h : Fin 256) :
    iblk0 V c 6 t (ix2 z h) = (V c main_v1 : S1x256.Idx → EReal) (ix2 z h) := by
  show (V c main_v1 : S1x256.Idx → EReal) (((cfg0.win 6).blk t).view.emb (ix2 z h)) = _
  rw [emb0_6]

theorem iblk0_8_apply (c : Dev nD) (t : Fin cfg0.N) (z : Fin 1) (h : Fin 256) :
    iblk0 V c 8 t (ix2 z h) = (V c main_v2 : S1x256.Idx → EReal) (ix2 z h) := by
  show (V c main_v2 : S1x256.Idx → EReal) (((cfg0.win 8).blk t).view.emb (ix2 z h)) = _
  rw [emb0_8]

/-! ## Output window 9 -/

/-- What point `t` writes back to window 9's array is block `t` of the projection of the arrays the region finds. -/
theorem flushed0_9_eq (c : Dev nD) (t : Fin cfg0.N) :
    (dat0 V c).flushed 9 t = ((cfg0.win 9).blk t).view.read (Elt Ideal) (P0 (V c main_arg0) (V c main_arg3) (V c main_v0)) := by
  show (cfg0.win 9).cut (grid0.coords t) ((dat0 V c).after 9 t) = _
  rw [after0_9]
  unfold out0_9
  rw [View.canon_unit_zero hz0]
  simp only [View.ld_unit_zero (S := S1024x256) hz0, View.ld_unit_zero (S := S256x256) hz0, View.ld_unit_zero (S := S1x256) hz0]
  funext j
  obtain ⟨p, h, rfl⟩ : ∃ (p : Fin 1024) (h : Fin 256), j = ix2 p h := ⟨j 0, j 1, eq_ix2 j⟩
  show k0_pay1 (iblk0 V c 0 t) (iblk0 V c 3 t) (iblk0 V c 4 t) (ix2 p h)
    = P0 (V c main_arg0) (V c main_arg3) (V c main_v0) (((cfg0.win 9).blk t).view.emb (ix2 p h))
  rw [k0_pay1_apply, emb0_9, P0_ix2, iblk0_4_apply]
  congr 1
  refine Finset.sum_congr rfl fun d _ => ?_
  rw [iblk0_0_apply, iblk0_3_apply]

/-- Every index of window 9's array lies in the block of the point its row falls in. -/
theorem cover0_9_arr (i : S8192x256.Idx) :
    ∃ t : Fin cfg0.N, (cfg0.win 9).flush t = true ∧ i ∈ ((cfg0.win 9).blk t).view.set := by
  obtain ⟨r, h, rfl⟩ : ∃ (r : Fin 8192) (h : Fin 256), i = ix2 r h := ⟨i 0, i 1, eq_ix2 i⟩
  have hr := r.isLt
  let t : Fin cfg0.N := ⟨r.val / 1024, by rw [show cfg0.N = grid0.N from rfl, N_0]; omega⟩
  refine ⟨t, flush0_9 t, ?_⟩
  have e : ((cfg0.win 9).blk t).view.emb (ix2 (⟨r.val % 1024, Nat.mod_lt _ (by decide)⟩ : Fin 1024) h) = ix2 r h := by
    rw [emb0_9]
    refine congrArg (fun q => ix2 q h) (Fin.ext ?_)
    show r.val / 1024 * 1024 + r.val % 1024 = r.val
    omega
  rw [← e]
  exact View.emb_mem_set _ _

/-- THE ARRAY window 9 writes, after the region: the projection of (main_arg0, main_arg3, main_v0) as the region finds them. -/
theorem final0_9 (c : Dev nD) :
    (dat0 V c).arrAt 9 cfg0.N = P0 (V c main_arg0) (V c main_arg3) (V c main_v0) :=
  (dat0 V c).arrAt_eq_of_cover 9 _ (fun t _ => flushed0_9_eq V c t) (cover0_9_arr)

/-- The same at the entry with coordinates `r`, `h`. -/
theorem final0_9_apply (c : Dev nD) (r : Fin 8192) (h : Fin 256) :
    (dat0 V c).arrAt 9 cfg0.N (ix2 r h)
      = Cert.Spec.proj (V c main_arg0) (V c main_arg3) (fun j => V c main_v0 (ix2 0 (j 0))) r h := by
  rw [final0_9]; rfl

/-! ## Output window 10 -/

/-- What point `t` writes back to window 10's array is block `t` of the projection of the arrays the region finds. -/
theorem flushed0_10_eq (c : Dev nD) (t : Fin cfg0.N) :
    (dat0 V c).flushed 10 t = ((cfg0.win 10).blk t).view.read (Elt Ideal) (P0 (V c main_arg1) (V c main_arg5) (V c main_v1)) := by
  show (cfg0.win 10).cut (grid0.coords t) ((dat0 V c).after 10 t) = _
  rw [after0_10]
  unfold out0_10
  rw [View.canon_unit_zero hz0]
  simp only [View.ld_unit_zero (S := S1024x256) hz0, View.ld_unit_zero (S := S256x256) hz0, View.ld_unit_zero (S := S1x256) hz0]
  funext j
  obtain ⟨p, h, rfl⟩ : ∃ (p : Fin 1024) (h : Fin 256), j = ix2 p h := ⟨j 0, j 1, eq_ix2 j⟩
  show k0_pay2 (iblk0 V c 1 t) (iblk0 V c 5 t) (iblk0 V c 6 t) (ix2 p h)
    = P0 (V c main_arg1) (V c main_arg5) (V c main_v1) (((cfg0.win 10).blk t).view.emb (ix2 p h))
  rw [k0_pay2_apply, emb0_10, P0_ix2, iblk0_6_apply]
  congr 1
  refine Finset.sum_congr rfl fun d _ => ?_
  rw [iblk0_1_apply, iblk0_5_apply]

/-- Every index of window 10's array lies in the block of the point its row falls in. -/
theorem cover0_10_arr (i : S8192x256.Idx) :
    ∃ t : Fin cfg0.N, (cfg0.win 10).flush t = true ∧ i ∈ ((cfg0.win 10).blk t).view.set := by
  obtain ⟨r, h, rfl⟩ : ∃ (r : Fin 8192) (h : Fin 256), i = ix2 r h := ⟨i 0, i 1, eq_ix2 i⟩
  have hr := r.isLt
  let t : Fin cfg0.N := ⟨r.val / 1024, by rw [show cfg0.N = grid0.N from rfl, N_0]; omega⟩
  refine ⟨t, flush0_10 t, ?_⟩
  have e : ((cfg0.win 10).blk t).view.emb (ix2 (⟨r.val % 1024, Nat.mod_lt _ (by decide)⟩ : Fin 1024) h) = ix2 r h := by
    rw [emb0_10]
    refine congrArg (fun q => ix2 q h) (Fin.ext ?_)
    show r.val / 1024 * 1024 + r.val % 1024 = r.val
    omega
  rw [← e]
  exact View.emb_mem_set _ _

/-- THE ARRAY window 10 writes, after the region: the projection of (main_arg1, main_arg5, main_v1) as the region finds them. -/
theorem final0_10 (c : Dev nD) :
    (dat0 V c).arrAt 10 cfg0.N = P0 (V c main_arg1) (V c main_arg5) (V c main_v1) :=
  (dat0 V c).arrAt_eq_of_cover 10 _ (fun t _ => flushed0_10_eq V c t) (cover0_10_arr)

/-- The same at the entry with coordinates `r`, `h`. -/
theorem final0_10_apply (c : Dev nD) (r : Fin 8192) (h : Fin 256) :
    (dat0 V c).arrAt 10 cfg0.N (ix2 r h)
      = Cert.Spec.proj (V c main_arg1) (V c main_arg5) (fun j => V c main_v1 (ix2 0 (j 0))) r h := by
  rw [final0_10]; rfl

/-! ## Output window 11 -/

/-- What point `t` writes back to window 11's array is block `t` of the projection of the arrays the region finds. -/
theorem flushed0_11_eq (c : Dev nD) (t : Fin cfg0.N) :
    (dat0 V c).flushed 11 t = ((cfg0.win 11).blk t).view.read (Elt Ideal) (P0 (V c main_arg2) (V c main_arg7) (V c main_v2)) := by
  show (cfg0.win 11).cut (grid0.coords t) ((dat0 V c).after 11 t) = _
  rw [after0_11]
  unfold out0_11
  rw [View.canon_unit_zero hz0]
  simp only [View.ld_unit_zero (S := S1024x256) hz0, View.ld_unit_zero (S := S256x256) hz0, View.ld_unit_zero (S := S1x256) hz0]
  funext j
  obtain ⟨p, h, rfl⟩ : ∃ (p : Fin 1024) (h : Fin 256), j = ix2 p h := ⟨j 0, j 1, eq_ix2 j⟩
  show k0_pay3 (iblk0 V c 2 t) (iblk0 V c 7 t) (iblk0 V c 8 t) (ix2 p h)
    = P0 (V c main_arg2) (V c main_arg7) (V c main_v2) (((cfg0.win 11).blk t).view.emb (ix2 p h))
  rw [k0_pay3_apply, emb0_11, P0_ix2, iblk0_8_apply]
  congr 1
  refine Finset.sum_congr rfl fun d _ => ?_
  rw [iblk0_2_apply, iblk0_7_apply]

/-- Every index of window 11's array lies in the block of the point its row falls in. -/
theorem cover0_11_arr (i : S8192x256.Idx) :
    ∃ t : Fin cfg0.N, (cfg0.win 11).flush t = true ∧ i ∈ ((cfg0.win 11).blk t).view.set := by
  obtain ⟨r, h, rfl⟩ : ∃ (r : Fin 8192) (h : Fin 256), i = ix2 r h := ⟨i 0, i 1, eq_ix2 i⟩
  have hr := r.isLt
  let t : Fin cfg0.N := ⟨r.val / 1024, by rw [show cfg0.N = grid0.N from rfl, N_0]; omega⟩
  refine ⟨t, flush0_11 t, ?_⟩
  have e : ((cfg0.win 11).blk t).view.emb (ix2 (⟨r.val % 1024, Nat.mod_lt _ (by decide)⟩ : Fin 1024) h) = ix2 r h := by
    rw [emb0_11]
    refine congrArg (fun q => ix2 q h) (Fin.ext ?_)
    show r.val / 1024 * 1024 + r.val % 1024 = r.val
    omega
  rw [← e]
  exact View.emb_mem_set _ _

/-- THE ARRAY window 11 writes, after the region: the projection of (main_arg2, main_arg7, main_v2) as the region finds them. -/
theorem final0_11 (c : Dev nD) :
    (dat0 V c).arrAt 11 cfg0.N = P0 (V c main_arg2) (V c main_arg7) (V c main_v2) :=
  (dat0 V c).arrAt_eq_of_cover 11 _ (fun t _ => flushed0_11_eq V c t) (cover0_11_arr)

/-- The same at the entry with coordinates `r`, `h`. -/
theorem final0_11_apply (c : Dev nD) (r : Fin 8192) (h : Fin 256) :
    (dat0 V c).arrAt 11 cfg0.N (ix2 r h)
      = Cert.Spec.proj (V c main_arg2) (V c main_arg7) (fun j => V c main_v2 (ix2 0 (j 0))) r h := by
  rw [final0_11]; rfl

end Cert.KernelIdeal.Frame

end
-- ==== Proof.IdealHostRead.lean ====
/-
  The host stretch before the first region, read back.

  The program begins with three reshapes, each of a bias vector of length 256 to a [1, 256] row. At the first region's
  entry a reshaped row at (0, h) is therefore the bias vector at h, and every argument array is as launched, since a
  reshape writes only its own result.
-/
import proofs.«121333_j25159918420592_1_alg».proof.Proof.IdealRun
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Frame

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (ρ : Dev nD → PrngReg)

/-! ## The three bias rows -/

/-- The reshaped bias row `main_v0` at the first region's entry is the bias vector `main_arg4` cast to one row. -/
theorem V1_main_v0_eq (c : Dev nD) :
    (V1 m ρ c main_v0 : (⟨S1x256, .f32⟩ : BufTy).Contents (Elt F))
      = shapeCast S1x256 (m ((c : Thread nD τ).loc main_arg4)) shapeCasts_S256_S1x256 := by
  dsimp only [V1, W1, hostOps0]
  after_results
  rfl

/-- Read at (0, h): the bias vector at h. -/
theorem V1_bias0 (c : Dev nD) (h : Fin 256) :
    V1 m ρ c main_v0 (ix2 0 h) = m ((c : Thread nD τ).loc main_arg4) (ix1 h) := by
  rw [V1_main_v0_eq]
  exact shapeCast_a_1a_apply _ _ 0 h

/-- The reshaped bias row `main_v1` at the first region's entry is the bias vector `main_arg6` cast to one row. -/
theorem V1_main_v1_eq (c : Dev nD) :
    (V1 m ρ c main_v1 : (⟨S1x256, .f32⟩ : BufTy).Contents (Elt F))
      = shapeCast S1x256 (m ((c : Thread nD τ).loc main_arg6)) shapeCasts_S256_S1x256 := by
  dsimp only [V1, W1, hostOps0]
  after_results
  rfl

/-- Read at (0, h): the bias vector at h. -/
theorem V1_bias1 (c : Dev nD) (h : Fin 256) :
    V1 m ρ c main_v1 (ix2 0 h) = m ((c : Thread nD τ).loc main_arg6) (ix1 h) := by
  rw [V1_main_v1_eq]
  exact shapeCast_a_1a_apply _ _ 0 h

/-- The reshaped bias row `main_v2` at the first region's entry is the bias vector `main_arg8` cast to one row. -/
theorem V1_main_v2_eq (c : Dev nD) :
    (V1 m ρ c main_v2 : (⟨S1x256, .f32⟩ : BufTy).Contents (Elt F))
      = shapeCast S1x256 (m ((c : Thread nD τ).loc main_arg8)) shapeCasts_S256_S1x256 := by
  dsimp only [V1, W1, hostOps0]
  after_results
  rfl

/-- Read at (0, h): the bias vector at h. -/
theorem V1_bias2 (c : Dev nD) (h : Fin 256) :
    V1 m ρ c main_v2 (ix2 0 h) = m ((c : Thread nD τ).loc main_arg8) (ix1 h) := by
  rw [V1_main_v2_eq]
  exact shapeCast_a_1a_apply _ _ 0 h

/-! ## The arguments at the first region's entry are as launched -/

theorem V1_arg0 (c : Dev nD) : V1 m ρ c main_arg0 = m ((c : Thread nD τ).loc main_arg0) := by
  dsimp only [V1, W1, hostOps0]
  after_results

theorem V1_arg1 (c : Dev nD) : V1 m ρ c main_arg1 = m ((c : Thread nD τ).loc main_arg1) := by
  dsimp only [V1, W1, hostOps0]
  after_results

theorem V1_arg2 (c : Dev nD) : V1 m ρ c main_arg2 = m ((c : Thread nD τ).loc main_arg2) := by
  dsimp only [V1, W1, hostOps0]
  after_results

theorem V1_arg3 (c : Dev nD) : V1 m ρ c main_arg3 = m ((c : Thread nD τ).loc main_arg3) := by
  dsimp only [V1, W1, hostOps0]
  after_results

theorem V1_arg5 (c : Dev nD) : V1 m ρ c main_arg5 = m ((c : Thread nD τ).loc main_arg5) := by
  dsimp only [V1, W1, hostOps0]
  after_results

theorem V1_arg7 (c : Dev nD) : V1 m ρ c main_arg7 = m ((c : Thread nD τ).loc main_arg7) := by
  dsimp only [V1, W1, hostOps0]
  after_results

end Cert.KernelIdeal.Frame

end
-- ==== Proof.IdealValue.lean ====
import proofs.«121333_j25159918420592_1_alg».proof.Proof.IdealRun
import proofs.«121333_j25159918420592_1_alg».proof.Proof.IdealRegion1Final
import proofs.«121333_j25159918420592_1_alg».proof.Proof.IdealRegion0Final
import proofs.«121333_j25159918420592_1_alg».proof.Proof.IdealHostRead
import proofs.«121333_j25159918420592_1_alg».proof.Proof.Spec

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # What the idealized kernel's result array holds: the specification, of the launch arguments

The first region leaves `q = x₀·W₃ᵀ + b₄`, `k = x₁·W₅ᵀ + b₆`, `v = x₂·W₇ᵀ + b₈` (the biases through their reshapes to one
row); the second region reads exactly those three arrays and leaves `∑ n, σ(q[r,·]·k[n,·]) · v[n,c]`. -/

variable (m : (ℓ : Loc nD τ sig) → Buf (Elt Ideal) ℓ) (ρ : Dev nD → PrngReg)

/-- The query array the second region reads, at an entry. -/
theorem qarr_apply (c : Dev nD) (r : Fin 8192) (d : Fin 256) :
    V2 m ρ c main_v3_0 (ix2 r d) = Cert.Spec.proj (m ((c.tc : Thread nD τ).loc main_arg0)) (m ((c.tc : Thread nD τ).loc main_arg3)) (m ((c.tc : Thread nD τ).loc main_arg4)) r d := by
  show W2 m ρ c (Proc.devRef .tc (Pipeline.arrRef spec0 9)) (ix2 r d) = _
  rw [W2_arr m ρ c 9, final0_9_apply, V1_arg0, V1_arg3]
  unfold Cert.Spec.proj
  exact congrArg _ (V1_bias0 m ρ c d)
/-- The key array. -/
theorem karr_apply (c : Dev nD) (r : Fin 8192) (d : Fin 256) :
    V2 m ρ c main_v3_1 (ix2 r d) = Cert.Spec.proj (m ((c.tc : Thread nD τ).loc main_arg1)) (m ((c.tc : Thread nD τ).loc main_arg5)) (m ((c.tc : Thread nD τ).loc main_arg6)) r d := by
  show W2 m ρ c (Proc.devRef .tc (Pipeline.arrRef spec0 10)) (ix2 r d) = _
  rw [W2_arr m ρ c 10, final0_10_apply, V1_arg1, V1_arg5]
  unfold Cert.Spec.proj
  exact congrArg _ (V1_bias1 m ρ c d)
/-- The value array. -/
theorem varr_apply (c : Dev nD) (r : Fin 8192) (d : Fin 256) :
    V2 m ρ c main_v3_2 (ix2 r d) = Cert.Spec.proj (m ((c.tc : Thread nD τ).loc main_arg2)) (m ((c.tc : Thread nD τ).loc main_arg7)) (m ((c.tc : Thread nD τ).loc main_arg8)) r d := by
  show W2 m ρ c (Proc.devRef .tc (Pipeline.arrRef spec0 11)) (ix2 r d) = _
  rw [W2_arr m ρ c 11, final0_11_apply, V1_arg2, V1_arg7]
  unfold Cert.Spec.proj
  exact congrArg _ (V1_bias2 m ρ c d)

/-- The result array after the run is the specification of the launch arguments. -/
theorem result_eq (c : Dev nD) : (dat1 (V2 m ρ) c).arrAt 3 cfg1.N
    = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [final1_3]
  funext i
  obtain ⟨r, c', rfl⟩ : ∃ (r : Fin 8192) (c' : Fin 256), i = ix2 r c' := ⟨i 0, i 1, eq_ix2 i⟩
  rw [Cert.Spec.G_ix2]
  have hq : (fun (r : Fin 8192) (d : Fin 256) => (V2 m ρ c main_v3_0 (ix2 r d) : EReal)) = Cert.Spec.proj (m ((c.tc : Thread nD τ).loc main_arg0)) (m ((c.tc : Thread nD τ).loc main_arg3)) (m ((c.tc : Thread nD τ).loc main_arg4)) :=
    funext fun r => funext fun d => qarr_apply m ρ c r d
  have hk : (fun (r : Fin 8192) (d : Fin 256) => (V2 m ρ c main_v3_1 (ix2 r d) : EReal)) = Cert.Spec.proj (m ((c.tc : Thread nD τ).loc main_arg1)) (m ((c.tc : Thread nD τ).loc main_arg5)) (m ((c.tc : Thread nD τ).loc main_arg6)) :=
    funext fun r => funext fun d => karr_apply m ρ c r d
  have hv : (fun (r : Fin 8192) (d : Fin 256) => (V2 m ρ c main_v3_2 (ix2 r d) : EReal)) = Cert.Spec.proj (m ((c.tc : Thread nD τ).loc main_arg2)) (m ((c.tc : Thread nD τ).loc main_arg7)) (m ((c.tc : Thread nD τ).loc main_arg8)) :=
    funext fun r => funext fun d => varr_apply m ρ c r d
  show Cert.Spec.attn (fun (r : Fin 8192) (d : Fin 256) => (V2 m ρ c main_v3_0 (ix2 r d) : EReal)) (fun (r : Fin 8192) (d : Fin 256) => (V2 m ρ c main_v3_1 (ix2 r d) : EReal)) (fun (r : Fin 8192) (d : Fin 256) => (V2 m ρ c main_v3_2 (ix2 r d) : EReal)) r c' = _
  rw [hq, hk, hv]

/-- Every weakly fair execution of the idealized kernel terminates, nothing faulting, with the result array at the
    specification of the launch arguments and the arguments unchanged. -/
theorem run_G : θ_run defs (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_result m ρ)

end Cert.KernelIdeal.Frame

end
-- ==== Proof.RefValue.lean ====
/-
  The reference program's result is the specification `Cert.Spec.G` of its nine argument arrays.

  The reference computes three linear projections (a row array times the transposed weight matrix, plus the bias row
  broadcast over the rows), the scores of every query row against every key row, the logistic of each score written as
  1 / (1 + exp (-s)) with the literal one, and the product of that [8192, 8192] array with the value projection. Read
  at the result index (r, c), operation by operation: a projection at (r, h) is `Spec.proj` there; a score at (r, n) is
  the sum over d of the query projection at (r, d) times the key projection at (n, d); the divide / add / exp / negate
  chain is `Ideal.logistic` by definition, once the word 0x3F800000 is read as 1; and the last product is the sum over
  the key rows n. The [8192, 8192] intermediates are only ever read at one symbolic index.
-/
import proofs.«121333_j25159918420592_1_alg».proof.Defs
import proofs.«121333_j25159918420592_1_alg».proof.Proof.Gen.ReferenceIdeal
import proofs.«121333_j25159918420592_1_alg».proof.Proof.Gen.ReferenceIdeal.Read
import proofs.«121333_j25159918420592_1_alg».proof.Proof.Gen.Pre_finite_inputs
import proofs.«121333_j25159918420592_1_alg».proof.Proof.Spec
import Idealize.ShloMosaic.Lib.ValueIdx
import Idealize.ShloMosaic.Lib.IdealHost
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## Where each operation reads its operands, in coordinates -/

section Indices
variable (r n : Fin 8192) (h c k : Fin 256)

/-- A projection's product at (r, h), term k, reads the row array at (r, k) … -/
theorem lidx1 : lidx_main_v1 (ix2 r h) k = ix2 r k :=
  funext fun a => Fin.ext (by match a with | ⟨0, _⟩ => rfl | ⟨1, _⟩ => rfl)
/-- … and the transposed weight matrix at (k, h), that is the weight matrix at (h, k). -/
theorem ridx1 : idx_main_v0 (ridx_main_v1 (ix2 r h) k) = ix2 h k :=
  funext fun a => Fin.ext (by match a with | ⟨0, _⟩ => rfl | ⟨1, _⟩ => rfl)
/-- The bias broadcast over the rows reads the bias vector at h. -/
theorem bidx3 : idx_main_v2 (idx_main_v3 (ix2 r h)) = ix1 h :=
  funext fun a => Fin.ext (by match a with | ⟨0, _⟩ => rfl)
theorem lidx6 : lidx_main_v6 (ix2 r h) k = ix2 r k :=
  funext fun a => Fin.ext (by match a with | ⟨0, _⟩ => rfl | ⟨1, _⟩ => rfl)
theorem ridx6 : idx_main_v5 (ridx_main_v6 (ix2 r h) k) = ix2 h k :=
  funext fun a => Fin.ext (by match a with | ⟨0, _⟩ => rfl | ⟨1, _⟩ => rfl)
theorem bidx8 : idx_main_v7 (idx_main_v8 (ix2 r h)) = ix1 h :=
  funext fun a => Fin.ext (by match a with | ⟨0, _⟩ => rfl)
theorem lidx11 : lidx_main_v11 (ix2 r h) k = ix2 r k :=
  funext fun a => Fin.ext (by match a with | ⟨0, _⟩ => rfl | ⟨1, _⟩ => rfl)
theorem ridx11 : idx_main_v10 (ridx_main_v11 (ix2 r h) k) = ix2 h k :=
  funext fun a => Fin.ext (by match a with | ⟨0, _⟩ => rfl | ⟨1, _⟩ => rfl)
theorem bidx13 : idx_main_v12 (idx_main_v13 (ix2 r h)) = ix1 h :=
  funext fun a => Fin.ext (by match a with | ⟨0, _⟩ => rfl)
/-- The score at (r, n), term k, reads the query projection at (r, k) … -/
theorem lidx16 : lidx_main_v16 (ix2 r n) k = ix2 r k :=
  funext fun a => Fin.ext (by match a with | ⟨0, _⟩ => rfl | ⟨1, _⟩ => rfl)
/-- … and the transposed key projection at (k, n), that is the key projection at (n, k). -/
theorem ridx16 : idx_main_v15 (ridx_main_v16 (ix2 r n) k) = ix2 n k :=
  funext fun a => Fin.ext (by match a with | ⟨0, _⟩ => rfl | ⟨1, _⟩ => rfl)
/-- The result at (r, c), term n, reads the weights at (r, n) and the value projection at (n, c). -/
theorem lidx23 : lidx_main_v23 (ix2 r c) n = ix2 r n :=
  funext fun a => Fin.ext (by match a with | ⟨0, _⟩ => rfl | ⟨1, _⟩ => rfl)
theorem ridx23 : ridx_main_v23 (ix2 r c) n = ix2 n c :=
  funext fun a => Fin.ext (by match a with | ⟨0, _⟩ => rfl | ⟨1, _⟩ => rfl)

end Indices

/-! ## The three projections -/

/-- The query projection at (r, h). -/
theorem v4_ix2 (x0 : (⟨S8192x256, .f32⟩ : BufTy).Contents (Elt Ideal)) (x3 : (⟨S256x256, .f32⟩ : BufTy).Contents (Elt Ideal))
    (x4 : (⟨S256, .f32⟩ : BufTy).Contents (Elt Ideal)) (r : Fin 8192) (h : Fin 256) :
    val_main_v4 (F := Ideal) x0 x3 x4 (ix2 r h) = Cert.Spec.proj x0 x3 x4 r h := by
  rw [val_main_v4_apply, val_main_v1_apply, val_main_v3_apply, val_main_v2_apply, bidx3, Ideal.addf_def]
  unfold Cert.Spec.proj
  refine congrArg (· + x4 (ix1 h)) (Finset.sum_congr rfl fun k _ => ?_)
  rw [val_main_v0_apply, lidx1, ridx1]

/-- The key projection at (r, h). -/
theorem v9_ix2 (x1 : (⟨S8192x256, .f32⟩ : BufTy).Contents (Elt Ideal)) (x5 : (⟨S256x256, .f32⟩ : BufTy).Contents (Elt Ideal))
    (x6 : (⟨S256, .f32⟩ : BufTy).Contents (Elt Ideal)) (r : Fin 8192) (h : Fin 256) :
    val_main_v9 (F := Ideal) x1 x5 x6 (ix2 r h) = Cert.Spec.proj x1 x5 x6 r h := by
  rw [val_main_v9_apply, val_main_v6_apply, val_main_v8_apply, val_main_v7_apply, bidx8, Ideal.addf_def]
  unfold Cert.Spec.proj
  refine congrArg (· + x6 (ix1 h)) (Finset.sum_congr rfl fun k _ => ?_)
  rw [val_main_v5_apply, lidx6, ridx6]

/-- The value projection at (r, h). -/
theorem v14_ix2 (x2 : (⟨S8192x256, .f32⟩ : BufTy).Contents (Elt Ideal)) (x7 : (⟨S256x256, .f32⟩ : BufTy).Contents (Elt Ideal))
    (x8 : (⟨S256, .f32⟩ : BufTy).Contents (Elt Ideal)) (r : Fin 8192) (h : Fin 256) :
    val_main_v14 (F := Ideal) x2 x7 x8 (ix2 r h) = Cert.Spec.proj x2 x7 x8 r h := by
  rw [val_main_v14_apply, val_main_v11_apply, val_main_v13_apply, val_main_v12_apply, bidx13, Ideal.addf_def]
  unfold Cert.Spec.proj
  refine congrArg (· + x8 (ix1 h)) (Finset.sum_congr rfl fun k _ => ?_)
  rw [val_main_v10_apply, lidx11, ridx11]

/-! ## Scores and weights -/

/-- The score of query row r against key row n. -/
theorem v16_ix2 (x0 x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (r n : Fin 8192) :
    val_main_v16 (F := Ideal) x0 x1 x3 x4 x5 x6 (ix2 r n)
      = ∑ d : Fin 256, Cert.Spec.proj x0 x3 x4 r d * Cert.Spec.proj x1 x5 x6 n d := by
  rw [val_main_v16_apply]
  refine Finset.sum_congr rfl fun k _ => ?_
  rw [val_main_v15_apply, lidx16, ridx16, v4_ix2, v9_ix2]

/-- The weight of key row n for query row r: the logistic of the score. The reference spells it
    1 / (1 + exp (-s)) with the literal one, which is what `Ideal.logistic` is. -/
theorem v22_ix2 (x0 x1 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (r n : Fin 8192) :
    val_main_v22 (F := Ideal) x0 x1 x3 x4 x5 x6 (ix2 r n)
      = Ideal.logistic (∑ d : Fin 256, Cert.Spec.proj x0 x3 x4 r d * Cert.Spec.proj x1 x5 x6 n d) := by
  rw [val_main_v22_apply, val_main_v21_apply, val_main_cst_0_apply, val_main_v20_apply, val_main_v19_apply,
    val_main_cst_apply, val_main_v18_apply, val_main_v17_apply, v16_ix2]
  rw [Ideal.hostDivf_def, Ideal.addf_def, Ideal.hostUnary_exp_def, Ideal.hostNegf_def, Ideal.negf_def, Ideal.ofBits_def,
    Ideal.ofBits_one_f32]
  rfl

/-! ## The result -/

/-- The reference's last stage is the specification, index by index. -/
theorem result_eq (a0 a1 a2 : (⟨S8192x256, .f32⟩ : BufTy).Contents (Elt Ideal)) (a3 : (⟨S256x256, .f32⟩ : BufTy).Contents (Elt Ideal))
    (a4 : (⟨S256, .f32⟩ : BufTy).Contents (Elt Ideal)) (a5 : (⟨S256x256, .f32⟩ : BufTy).Contents (Elt Ideal))
    (a6 : (⟨S256, .f32⟩ : BufTy).Contents (Elt Ideal)) (a7 : (⟨S256x256, .f32⟩ : BufTy).Contents (Elt Ideal))
    (a8 : (⟨S256, .f32⟩ : BufTy).Contents (Elt Ideal)) :
    val_main_v23 (F := Ideal) a0 a1 a2 a3 a4 a5 a6 a7 a8 = Cert.Spec.G a0 a1 a2 a3 a4 a5 a6 a7 a8 := by
  funext i
  obtain ⟨r, c, rfl⟩ : ∃ (r : Fin 8192) (c : Fin 256), i = ix2 r c := ⟨i 0, i 1, eq_ix2 i⟩
  rw [Cert.Spec.G_ix2, val_main_v23_apply]
  unfold Cert.Spec.attn
  refine Finset.sum_congr rfl fun n _ => ?_
  rw [lidx23, ridx23, v22_ix2, v14_ix2]

/-! ## The reference's run -/

/-- Every weakly fair execution of the reference terminates with its result the specification of the argument arrays
    it started from, and those arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v23) = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono
    (fun _ h c => ⟨(h c).1.trans ((val_main_v23_eq _ _ _ _ _ _ _ _ _).trans (result_eq _ _ _ _ _ _ _ _ _)), (h c).2⟩)
    (Cert.ReferenceIdeal.Value.run (F := Ideal) m' ρ')

/-- The reference's frame: it terminates and leaves its arguments as they were (its run with the result dropped). -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The kernel computes sigmoid attention in two launches. The first projects the three inputs, block of 1024 rows by
  block: q = query·Wqᵀ + bq, k = key·Wkᵀ + bk, v = value·Wvᵀ + bv (the biases reshaped to one row on the host first).
  The second walks an 8 × 8 grid: at point (i, j) it adds σ(q_i·k_jᵀ)·v_j — the contribution of the j-th block of 1024
  key rows to the i-th block of 1024 query rows — to an accumulator kept in a scratch buffer, which it clears at j = 0
  and copies to the output block i at j = 7. The reference computes σ(q·kᵀ)·v in one piece, with σ(x) spelt
  1 / (1 + exp(−x)).
  At the ideal instance a float is an extended real and a change of format is the identity, so both results are, entry
  (r, c), the sum over all 8192 key rows n of σ(∑_d q[r,d]·k[n,d]) · v[n,c] with q, k, v the same three affine images of
  the arguments: the kernel's sum is grouped into eight blocks of 1024 and added left to right from zero, which a finite
  sum in a commutative monoid allows; no cancellation or distributivity is used, so the precondition is never opened.
  `Cert.Spec.G` is that function; the reference's run ends at it (`RefValue.ref_run`) and so does the idealized
  kernel's (`Frame.run_G`).
  The two kernel programs' frames come from the same run: every weakly fair execution of the three reshapes and the two
  regions terminates without a fault and ends with every unscoped buffer at a stated valuation, which agrees with the
  launch memory on the nine arguments (`Frame.frame`, once at the word-level instance and once at the ideal one).
-/
import proofs.«121333_j25159918420592_1_alg».proof.Defs
import proofs.«121333_j25159918420592_1_alg».proof.Proof.Gen.Kernel
import proofs.«121333_j25159918420592_1_alg».proof.Proof.Gen.KernelIdeal
import proofs.«121333_j25159918420592_1_alg».proof.Proof.Gen.ReferenceIdeal
import proofs.«121333_j25159918420592_1_alg».proof.Proof.Gen.Pre_finite_inputs
import proofs.«121333_j25159918420592_1_alg».proof.Proof.BitsRun
import proofs.«121333_j25159918420592_1_alg».proof.Proof.IdealValue
import proofs.«121333_j25159918420592_1_alg».proof.Proof.RefValue

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Frame.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- Both idealized programs end with the result array at the one specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Frame.run_G m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
